-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x65536 : Shape := ⟨2, ![256, 65536]⟩
abbrev S65536x256 : Shape := ⟨2, ![65536, 256]⟩
abbrev S256x256 : Shape := ⟨2, ![256, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S256x65536 : S_.BroadcastsInDim S256x65536 (![] : Fin 0 → Fin S256x65536.rank)
  reducesTo_S256x65536_S_d0_1 : S256x65536.ReducesTo [0, 1] S_
  h_S_ : 0 < S_.numel
  bcast_S_S65536x256 : S_.BroadcastsInDim S65536x256 (![] : Fin 0 → Fin S65536x256.rank)
  reducesTo_S65536x256_S_d0_1 : S65536x256.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part6 {F : FTy → Type} [FloatOps F] (main_arg21 : FVec F S128 .f32) (main_v98 : IVec S_ 1) (main_v101 : IVec S256x128 1) (main_c_39 : IVec S_ 1) : IVec S_ 1 :=
  let main_v102 : IVec S_ 1 := (fun x v => Host.reduce IntOp.andi x v reducesTo_S256x128_S_d0_1 h_S_) main_v101 main_c_39
  let main_v103 : IVec S_ 1 := andi main_v98 main_v102
  let main_v104 : FVec F S128 .f32 := Host.absf main_arg21
  let main_cst_40 : FVec F S_ .f32 := constant S_ .f32 0x7F800000#32
  let main_v105 : FVec F S128 .f32 := broadcastInDim S128 ![] bcast_S_S128 main_cst_40
  let main_v106 : IVec S128 1 := cmpf .olt main_v104 main_v105
  let main_c_41 : IVec S_ 1 := constantI S_ 1 1#1
  let main_v107 : IVec S_ 1 := (fun x v => Host.reduce IntOp.andi x v reducesTo_S128_S_d0 h_S_) main_v106 main_c_41
  let main_v108 : IVec S_ 1 := andi main_v103 main_v107
  main_v108

def fn_part5 {F : FTy → Type} [FloatOps F] (main_arg18 : FVec F S256x256 .f32) (main_arg19 : FVec F S256 .f32) (main_arg20 : FVec F S256x128 .f32) (main_arg21 : FVec F S128 .f32) (main_v83 : IVec S_ 1) (main_v84 : FVec F S256 .f32) (main_cst_32 : FVec F S_ .f32) : IVec S_ 1 :=
  let main_v85 : FVec F S256 .f32 := broadcastInDim S256 ![] bcast_S_S256 main_cst_32
  let main_v86 : IVec S256 1 := cmpf .olt main_v84 main_v85
  let main_c_33 : IVec S_ 1 := constantI S_ 1 1#1
  let main_v87 : IVec S_ 1 := (fun x v => Host.reduce IntOp.andi x v reducesTo_S256_S_d0 h_S_) main_v86 main_c_33
  let main_v88 : IVec S_ 1 := andi main_v83 main_v87
  let main_v89 : FVec F S256x256 .f32 := Host.absf main_arg18
  let main_cst_34 : FVec F S_ .f32 := constant S_ .f32 0x7F800000#32
  let main_v90 : FVec F S256x256 .f32 := broadcastInDim S256x256 ![] bcast_S_S256x256 main_cst_34
  let main_v91 : IVec S256x256 1 := cmpf .olt main_v89 main_v90
  let main_c_35 : IVec S_ 1 := constantI S_ 1 1#1
  let main_v92 : IVec S_ 1 := (fun x v => Host.reduce IntOp.andi x v reducesTo_S256x256_S_d0_1 h_S_) main_v91 main_c_35
  let main_v93 : IVec S_ 1 := andi main_v88 main_v92
  let main_v94 : FVec F S256 .f32 := Host.absf main_arg19
  let main_cst_36 : FVec F S_ .f32 := constant S_ .f32 0x7F800000#32
  let main_v95 : FVec F S256 .f32 := broadcastInDim S256 ![] bcast_S_S256 main_cst_36
  let main_v96 : IVec S256 1 := cmpf .olt main_v94 main_v95
  let main_c_37 : IVec S_ 1 := constantI S_ 1 1#1
  let main_v97 : IVec S_ 1 := (fun x v => Host.reduce IntOp.andi x v reducesTo_S256_S_d0 h_S_) main_v96 main_c_37
  let main_v98 : IVec S_ 1 := andi main_v93 main_v97
  let main_v99 : FVec F S256x128 .f32 := Host.absf main_arg20
  let main_cst_38 : FVec F S_ .f32 := constant S_ .f32 0x7F800000#32
  let main_v100 : FVec F S256x128 .f32 := broadcastInDim S256x128 ![] bcast_S_S256x128 main_cst_38
  let main_v101 : IVec S256x128 1 := cmpf .olt main_v99 main_v100
  let main_c_39 : IVec S_ 1 := constantI S_ 1 1#1
  fn_part6 (F := F) main_arg21 main_v98 main_v101 main_c_39

def fn_part4 {F : FTy → Type} [FloatOps F] (main_arg14 : FVec F S256x256 .f32) (main_arg15 : FVec F S256 .f32) (main_arg16 : FVec F S256x256 .f32) (main_arg17 : FVec F S256 .f32) (main_arg18 : FVec F S256x256 .f32) (main_arg19 : FVec F S256 .f32) (main_arg20 : FVec F S256x128 .f32) (main_arg21 : FVec F S128 .f32) (main_v63 : IVec S_ 1) (main_v67 : IVec S_ 1) : IVec S_ 1 :=
  let main_v68 : IVec S_ 1 := andi main_v63 main_v67
  let main_v69 : FVec F S256x256 .f32 := Host.absf main_arg14
  let main_cst_26 : FVec F S_ .f32 := constant S_ .f32 0x7F800000#32
  let main_v70 : FVec F S256x256 .f32 := broadcastInDim S256x256 ![] bcast_S_S256x256 main_cst_26
  let main_v71 : IVec S256x256 1 := cmpf .olt main_v69 main_v70
  let main_c_27 : IVec S_ 1 := constantI S_ 1 1#1
  let main_v72 : IVec S_ 1 := (fun x v => Host.reduce IntOp.andi x v reducesTo_S256x256_S_d0_1 h_S_) main_v71 main_c_27
  let main_v73 : IVec S_ 1 := andi main_v68 main_v72
  let main_v74 : FVec F S256 .f32 := Host.absf main_arg15
  let main_cst_28 : FVec F S_ .f32 := constant S_ .f32 0x7F800000#32
  let main_v75 : FVec F S256 .f32 := broadcastInDim S256 ![] bcast_S_S256 main_cst_28
  let main_v76 : IVec S256 1 := cmpf .olt main_v74 main_v75
  let main_c_29 : IVec S_ 1 := constantI S_ 1 1#1
  let main_v77 : IVec S_ 1 := (fun x v => Host.reduce IntOp.andi x v reducesTo_S256_S_d0 h_S_) main_v76 main_c_29
  let main_v78 : IVec S_ 1 := andi main_v73 main_v77
  let main_v79 : FVec F S256x256 .f32 := Host.absf main_arg16
  let main_cst_30 : FVec F S_ .f32 := constant S_ .f32 0x7F800000#32
  let main_v80 : FVec F S256x256 .f32 := broadcastInDim S256x256 ![] bcast_S_S256x256 main_cst_30
  let main_v81 : IVec S256x256 1 := cmpf .olt main_v79 main_v80
  let main_c_31 : IVec S_ 1 := constantI S_ 1 1#1
  let main_v82 : IVec S_ 1 := (fun x v => Host.reduce IntOp.andi x v reducesTo_S256x256_S_d0_1 h_S_) main_v81 main_c_31
  let main_v83 : IVec S_ 1 := andi main_v78 main_v82
  let main_v84 : FVec F S256 .f32 := Host.absf main_arg17
  let main_cst_32 : FVec F S_ .f32 := constant S_ .f32 0x7F800000#32
  fn_part5 (F := F) main_arg18 main_arg19 main_arg20 main_arg21 main_v83 main_v84 main_cst_32

def fn_part3 {F : FTy → Type} [FloatOps F] (main_arg11 : FVec F S256 .f32) (main_arg12 : FVec F S256x256 .f32) (main_arg13 : FVec F S256 .f32) (main_arg14 : FVec F S256x256 .f32) (main_arg15 : FVec F S256 .f32) (main_arg16 : FVec F S256x256 .f32) (main_arg17 : FVec F S256 .f32) (main_arg18 : FVec F S256x256 .f32) (main_arg19 : FVec F S256 .f32) (main_arg20 : FVec F S256x128 .f32) (main_arg21 : FVec F S128 .f32) (main_v48 : IVec S_ 1) (main_v49 : FVec F S256x256 .f32) (main_v50 : FVec F S256x256 .f32) : IVec S_ 1 :=
  let main_v51 : IVec S256x256 1 := cmpf .olt main_v49 main_v50
  let main_c_19 : IVec S_ 1 := constantI S_ 1 1#1
  let main_v52 : IVec S_ 1 := (fun x v => Host.reduce IntOp.andi x v reducesTo_S256x256_S_d0_1 h_S_) main_v51 main_c_19
  let main_v53 : IVec S_ 1 := andi main_v48 main_v52
  let main_v54 : FVec F S256 .f32 := Host.absf main_arg11
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256x256 .f32 := Host.absf main_arg12
  let main_cst_22 : FVec F S_ .f32 := constant S_ .f32 0x7F800000#32
  let main_v60 : FVec F S256x256 .f32 := broadcastInDim S256x256 ![] bcast_S_S256x256 main_cst_22
  let main_v61 : IVec S256x256 1 := cmpf .olt main_v59 main_v60
  let main_c_23 : IVec S_ 1 := constantI S_ 1 1#1
  let main_v62 : IVec S_ 1 := (fun x v => Host.reduce IntOp.andi x v reducesTo_S256x256_S_d0_1 h_S_) main_v61 main_c_23
  let main_v63 : IVec S_ 1 := andi main_v58 main_v62
  let main_v64 : FVec F S256 .f32 := Host.absf main_arg13
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg14 main_arg15 main_arg16 main_arg17 main_arg18 main_arg19 main_arg20 main_arg21 main_v63 main_v67

def fn_part2 {F : FTy → Type} [FloatOps F] (main_arg7 : FVec F S256 .f32) (main_arg8 : FVec F S256x256 .f32) (main_arg9 : FVec F S256 .f32) (main_arg10 : FVec F S256x256 .f32) (main_arg11 : FVec F S256 .f32) (main_arg12 : FVec F S256x256 .f32) (main_arg13 : FVec F S256 .f32) (main_arg14 : FVec F S256x256 .f32) (main_arg15 : FVec F S256 .f32) (main_arg16 : FVec F S256x256 .f32) (main_arg17 : FVec F S256 .f32) (main_arg18 : FVec F S256x256 .f32) (main_arg19 : FVec F S256 .f32) (main_arg20 : FVec F S256x128 .f32) (main_arg21 : FVec F S128 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x256 .f32 := Host.absf main_arg8
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256x256 .f32 := Host.absf main_arg10
  let main_cst_18 : FVec F S_ .f32 := constant S_ .f32 0x7F800000#32
  let main_v50 : FVec F S256x256 .f32 := broadcastInDim S256x256 ![] bcast_S_S256x256 main_cst_18
  fn_part3 (F := F) main_arg11 main_arg12 main_arg13 main_arg14 main_arg15 main_arg16 main_arg17 main_arg18 main_arg19 main_arg20 main_arg21 main_v48 main_v49 main_v50

def fn_part1 {F : FTy → Type} [FloatOps F] (main_arg4 : FVec F S256x256 .f32) (main_arg5 : FVec F S256 .f32) (main_arg6 : FVec F S256x256 .f32) (main_arg7 : FVec F S256 .f32) (main_arg8 : FVec F S256x256 .f32) (main_arg9 : FVec F S256 .f32) (main_arg10 : FVec F S256x256 .f32) (main_arg11 : FVec F S256 .f32) (main_arg12 : FVec F S256x256 .f32) (main_arg13 : FVec F S256 .f32) (main_arg14 : FVec F S256x256 .f32) (main_arg15 : FVec F S256 .f32) (main_arg16 : FVec F S256x256 .f32) (main_arg17 : FVec F S256 .f32) (main_arg18 : FVec F S256x256 .f32) (main_arg19 : FVec F S256 .f32) (main_arg20 : FVec F S256x128 .f32) (main_arg21 : FVec F S128 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg6
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_v33

def fn {F : FTy → Type} [FloatOps F] (main_arg0 : FVec F S256x65536 .f32) (main_arg1 : FVec F S65536x256 .f32) (main_arg2 : FVec F S256x256 .f32) (main_arg3 : FVec F S256 .f32) (main_arg4 : FVec F S256x256 .f32) (main_arg5 : FVec F S256 .f32) (main_arg6 : FVec F S256x256 .f32) (main_arg7 : FVec F S256 .f32) (main_arg8 : FVec F S256x256 .f32) (main_arg9 : FVec F S256 .f32) (main_arg10 : FVec F S256x256 .f32) (main_arg11 : FVec F S256 .f32) (main_arg12 : FVec F S256x256 .f32) (main_arg13 : FVec F S256 .f32) (main_arg14 : FVec F S256x256 .f32) (main_arg15 : FVec F S256 .f32) (main_arg16 : FVec F S256x256 .f32) (main_arg17 : FVec F S256 .f32) (main_arg18 : FVec F S256x256 .f32) (main_arg19 : FVec F S256 .f32) (main_arg20 : FVec F S256x128 .f32) (main_arg21 : FVec F S128 .f32) : IVec S_ 1 :=
  let main_v0 : FVec F S256x65536 .f32 := Host.absf main_arg0
  let main_cst : FVec F S_ .f32 := constant S_ .f32 0x7F800000#32
  let main_v1 : FVec F S256x65536 .f32 := broadcastInDim S256x65536 ![] bcast_S_S256x65536 main_cst
  let main_v2 : IVec S256x65536 1 := cmpf .olt main_v0 main_v1
  let main_c : IVec S_ 1 := constantI S_ 1 1#1
  let main_v3 : IVec S_ 1 := (fun x v => Host.reduce IntOp.andi x v reducesTo_S256x65536_S_d0_1 h_S_) main_v2 main_c
  let main_v4 : FVec F S65536x256 .f32 := Host.absf main_arg1
  let main_cst_0 : FVec F S_ .f32 := constant S_ .f32 0x7F800000#32
  let main_v5 : FVec F S65536x256 .f32 := broadcastInDim S65536x256 ![] bcast_S_S65536x256 main_cst_0
  let main_v6 : IVec S65536x256 1 := cmpf .olt main_v4 main_v5
  let main_c_1 : IVec S_ 1 := constantI S_ 1 1#1
  let main_v7 : IVec S_ 1 := (fun x v => Host.reduce IntOp.andi x v reducesTo_S65536x256_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_v13 main_v16
-- ==== Kernel.lean ====
abbrev S256x65536 : Shape := ⟨2, ![256, 65536]⟩
abbrev S65536x256 : Shape := ⟨2, ![65536, 256]⟩
abbrev S256x256 : Shape := ⟨2, ![256, 256]⟩
abbrev S256 : Shape := ⟨1, ![256]⟩
abbrev S256x128 : Shape := ⟨2, ![256, 128]⟩
abbrev S128 : Shape := ⟨1, ![128]⟩
abbrev S128x65536 : Shape := ⟨2, ![128, 65536]⟩
abbrev S256x2048 : Shape := ⟨2, ![256, 2048]⟩
abbrev S2048x256 : Shape := ⟨2, ![2048, 256]⟩
abbrev S128x2048 : Shape := ⟨2, ![128, 2048]⟩
abbrev S1x256 : Shape := ⟨2, ![1, 256]⟩
abbrev S2048x128 : Shape := ⟨2, ![2048, 128]⟩
abbrev S1x128 : Shape := ⟨2, ![1, 128]⟩

abbrev nBuf : Space → Nat
  | .hbm => 23
  | .vmem => 20
  | .smem => 0
  | _ => 0

abbrev bufTy : (tb : Table) → Fin (tcTables nBuf tb) → BufTy
  | .hbm, ⟨0, _⟩ => ⟨S256x65536, .f32⟩
  | .hbm, ⟨1, _⟩ => ⟨S65536x256, .f32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S256x256, .f32⟩
  | .hbm, ⟨11, _⟩ => ⟨S256, .f32⟩
  | .hbm, ⟨12, _⟩ => ⟨S256x256, .f32⟩
  | .hbm, ⟨13, _⟩ => ⟨S256, .f32⟩
  | .hbm, ⟨14, _⟩ => ⟨S256x256, .f32⟩
  | .hbm, ⟨15, _⟩ => ⟨S256, .f32⟩
  | .hbm, ⟨16, _⟩ => ⟨S256x256, .f32⟩
  | .hbm, ⟨17, _⟩ => ⟨S256, .f32⟩
  | .hbm, ⟨18, _⟩ => ⟨S256x256, .f32⟩
  | .hbm, ⟨19, _⟩ => ⟨S256, .f32⟩
  | .hbm, ⟨20, _⟩ => ⟨S256x128, .f32⟩
  | .hbm, ⟨21, _⟩ => ⟨S128, .f32⟩
  | .hbm, ⟨22, _⟩ => ⟨S128x65536, .f32⟩
  | .local _ .vmem, ⟨0, _⟩ => ⟨S256x2048, .f32⟩
  | .local _ .vmem, ⟨1, _⟩ => ⟨S256x2048, .f32⟩
  | .local _ .vmem, ⟨2, _⟩ => ⟨S2048x256, .f32⟩
  | .local _ .vmem, ⟨3, _⟩ => ⟨S2048x256, .f32⟩
  | .local _ .vmem, ⟨4, _⟩ => ⟨S256x256, .f32⟩
  | .local _ .vmem, ⟨5, _⟩ => ⟨S256, .f32⟩
  | .local _ .vmem, ⟨6, _⟩ => ⟨S256x256, .f32⟩
  | .local _ .vmem, ⟨7, _⟩ => ⟨S256, .f32⟩
  | .local _ .vmem, ⟨8, _⟩ => ⟨S256x256, .f32⟩
  | .local _ .vmem, ⟨9, _⟩ => ⟨S256, .f32⟩
  | .local _ .vmem, ⟨10, _⟩ => ⟨S256x256, .f32⟩
  | .local _ .vmem, ⟨11, _⟩ => ⟨S256, .f32⟩
  | .local _ .vmem, ⟨12, _⟩ => ⟨S256x256, .f32⟩
  | .local _ .vmem, ⟨13, _⟩ => ⟨S256, .f32⟩
  | .local _ .vmem, ⟨14, _⟩ => ⟨S256x256, .f32⟩
  | .local _ .vmem, ⟨15, _⟩ => ⟨S256, .f32⟩
  | .local _ .vmem, ⟨16, _⟩ => ⟨S256x128, .f32⟩
  | .local _ .vmem, ⟨17, _⟩ => ⟨S128, .f32⟩
  | .local _ .vmem, ⟨18, _⟩ => ⟨S128x2048, .f32⟩
  | .local _ .vmem, ⟨19, _⟩ => ⟨S128x2048, .f32⟩
  | _, _ => ⟨S256x65536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg16_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem16_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S256x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S128x2048 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

class Facts₀ : Prop where
  inb_S256x2048_S256x2048_0_0 : ∀ a, (![0, 0] : Fin 2 → Nat) a + S256x2048.size a ≤ S256x2048.size a
  h_S256x2048 : 0 < S256x2048.numel
  transposes_S256x2048_p1_0_S2048x256 : S256x2048.Transposes [1, 0] S2048x256
  inb_S2048x256_S2048x256_0_0 : ∀ a, (![0, 0] : Fin 2 → Nat) a + S2048x256.size a ≤ S2048x256.size a
  h_S2048x256 : 0 < S2048x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S256x128_S256x128_0_0 : ∀ a, (![0, 0] : Fin 2 → Nat) a + S256x128.size a ≤ S256x128.size a
  h_S256x128 : 0 < S256x128.numel
  inb_S256_S256_0 : ∀ a, (![0] : Fin 1 → Nat) a + S256.size a ≤ S256.size a
  h_S256 : 0 < S256.numel
  shapeCasts_S256_S1x256 : S256.ShapeCasts S1x256
  broadcasts_S1x256_S2048x256 : S1x256.Broadcasts S2048x256
  inb_S128_S128_0 : ∀ a, (![0] : Fin 1 → Nat) a + S128.size a ≤ S128.size a
  h_S128 : 0 < S128.numel
  shapeCasts_S128_S1x128 : S128.ShapeCasts S1x128
  broadcasts_S1x128_S2048x128 : S1x128.Broadcasts S2048x128
  transposes_S2048x128_p1_0_S128x2048 : S2048x128.Transposes [1, 0] S128x2048
  inb_S128x2048_S128x2048_0_0 : ∀ a, (![0, 0] : Fin 2 → Nat) a + S128x2048.size a ≤ S128x2048.size a
  h_S128x2048 : 0 < S128x2048.numel
  dot_S2048x256_S256x256_S2048x256_1_0_0_1_n_n_wf : DotDims.WF S2048x256 S256x256 S2048x256 [1] [0] [0] [1] [] []
  dot_S2048x256_S256x128_S2048x128_1_0_0_1_n_n_wf : DotDims.WF S2048x256 S256x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S256x65536.size a
  hwx0_0 : ∀ i : grid0.Coords, EltTy.bits .f32 = 32 ∨ (Rect.block (s := S256x65536) S256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S65536x256.size a
  hwx0_1 : ∀ i : grid0.Coords, EltTy.bits .f32 = 32 ∨ (Rect.block (s := S65536x256) S2048x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256.size a ≤ S256.size a
  hwx0_5 : ∀ i : grid0.Coords, EltTy.bits .f32 = 32 ∨ (Rect.block (s := S256) S256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x256.size a ≤ S256x256.size a
  hwx0_6 : ∀ i : grid0.Coords, EltTy.bits .f32 = 32 ∨ (Rect.block (s := S256x256) S256x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256.size a ≤ S256.size a
  hwx0_7 : ∀ i : grid0.Coords, EltTy.bits .f32 = 32 ∨ (Rect.block (s := S256) S256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x256.size a ≤ S256x256.size a
  hwx0_8 : ∀ i : grid0.Coords, EltTy.bits .f32 = 32 ∨ (Rect.block (s := S256x256) S256x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256.size a ≤ S256.size a
  hwx0_9 : ∀ i : grid0.Coords, EltTy.bits .f32 = 32 ∨ (Rect.block (s := S256) S256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S256x256.size a ≤ S256x256.size a
  hwx0_10 : ∀ i : grid0.Coords, EltTy.bits .f32 = 32 ∨ (Rect.block (s := S256x256) S256x256.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S256.size a ≤ S256.size a
  hwx0_11 : ∀ i : grid0.Coords, EltTy.bits .f32 = 32 ∨ (Rect.block (s := S256) S256.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S256x256.size a ≤ S256x256.size a
  hwx0_12 : ∀ i : grid0.Coords, EltTy.bits .f32 = 32 ∨ (Rect.block (s := S256x256) S256x256.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S256.size a ≤ S256.size a
  hwx0_13 : ∀ i : grid0.Coords, EltTy.bits .f32 = 32 ∨ (Rect.block (s := S256) S256.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S256x128.size a ≤ S256x128.size a
  hwx0_14 : ∀ i : grid0.Coords, EltTy.bits .f32 = 32 ∨ (Rect.block (s := S256x128) S256x128.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S128.size a ≤ S128.size a
  hwx0_15 : ∀ i : grid0.Coords, EltTy.bits .f32 = 32 ∨ (Rect.block (s := S128) S128.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S128x2048.size a ≤ S128x65536.size a
  hwx0_16 : ∀ i : grid0.Coords, EltTy.bits .f32 = 32 ∨ (Rect.block (s := S128x65536) S128x2048.size (cc0_transform_16 i) (hinb0_16 i)).WholeWords (EltTy.packing .f32)

variable [Facts₀]

def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf

abbrev win0_0 : Pipeline.Window sig grid0 :=
  Pipeline.Window.ofSpec (Memref.whole main_arg0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S256x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S256x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S256x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S256x256.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg13) S256.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg20) S256x128.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg21) S128.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v0) S128x2048.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

class Facts : Prop extends Facts₀ where

variable [Facts]
-- ==== ReferenceIdeal.lean ====
abbrev S256x65536 : Shape := ⟨2, ![256, 65536]⟩
abbrev S65536x256 : Shape := ⟨2, ![65536, 256]⟩
abbrev S256x256 : Shape := ⟨2, ![256, 256]⟩
abbrev S256 : Shape := ⟨1, ![256]⟩
abbrev S256x128 : Shape := ⟨2, ![256, 128]⟩
abbrev S128 : Shape := ⟨1, ![128]⟩
abbrev S1x256 : Shape := ⟨2, ![1, 256]⟩
abbrev S_ : Shape := ⟨0, ![]⟩
abbrev S65536x128 : Shape := ⟨2, ![65536, 128]⟩
abbrev S1x128 : Shape := ⟨2, ![1, 128]⟩
abbrev S128x65536 : Shape := ⟨2, ![128, 65536]⟩

abbrev nBuf : Space → Nat
  | .hbm => 96
  | .vmem => 0
  | .smem => 0
  | _ => 0

abbrev bufTy : (tb : Table) → Fin (tcTables nBuf tb) → BufTy
  | .hbm, ⟨0, _⟩ => ⟨S256x65536, .f32⟩
  | .hbm, ⟨1, _⟩ => ⟨S65536x256, .f32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S256x256, .f32⟩
  | .hbm, ⟨11, _⟩ => ⟨S256, .f32⟩
  | .hbm, ⟨12, _⟩ => ⟨S256x256, .f32⟩
  | .hbm, ⟨13, _⟩ => ⟨S256, .f32⟩
  | .hbm, ⟨14, _⟩ => ⟨S256x256, .f32⟩
  | .hbm, ⟨15, _⟩ => ⟨S256, .f32⟩
  | .hbm, ⟨16, _⟩ => ⟨S256x256, .f32⟩
  | .hbm, ⟨17, _⟩ => ⟨S256, .f32⟩
  | .hbm, ⟨18, _⟩ => ⟨S256x256, .f32⟩
  | .hbm, ⟨19, _⟩ => ⟨S256, .f32⟩
  | .hbm, ⟨20, _⟩ => ⟨S256x128, .f32⟩
  | .hbm, ⟨21, _⟩ => ⟨S128, .f32⟩
  | .hbm, ⟨22, _⟩ => ⟨S65536x256, .f32⟩
  | .hbm, ⟨23, _⟩ => ⟨S65536x256, .f32⟩
  | .hbm, ⟨24, _⟩ => ⟨S1x256, .f32⟩
  | .hbm, ⟨25, _⟩ => ⟨S65536x256, .f32⟩
  | .hbm, ⟨26, _⟩ => ⟨S65536x256, .f32⟩
  | .hbm, ⟨27, _⟩ => ⟨S_, .f32⟩
  | .hbm, ⟨28, _⟩ => ⟨S65536x256, .f32⟩
  | .hbm, ⟨29, _⟩ => ⟨S65536x256, .i1⟩
  | .hbm, ⟨30, _⟩ => ⟨S_, .f32⟩
  | .hbm, ⟨31, _⟩ => ⟨S65536x256, .f32⟩
  | .hbm, ⟨32, _⟩ => ⟨S65536x256, .i1⟩
  | .hbm, ⟨33, _⟩ => ⟨S_, .f32⟩
  | .hbm, ⟨34, _⟩ => ⟨S_, .f32⟩
  | .hbm, ⟨35, _⟩ => ⟨S65536x256, .f32⟩
  | .hbm, ⟨36, _⟩ => ⟨S65536x256, .f32⟩
  | .hbm, ⟨37, _⟩ => ⟨S65536x256, .f32⟩
  | .hbm, ⟨38, _⟩ => ⟨S_, .f32⟩
  | .hbm, ⟨39, _⟩ => ⟨S65536x256, .f32⟩
  | .hbm, ⟨40, _⟩ => ⟨S65536x256, .f32⟩
  | .hbm, ⟨41, _⟩ => ⟨S65536x256, .f32⟩
  | .hbm, ⟨42, _⟩ => ⟨S65536x256, .f32⟩
  | .hbm, ⟨43, _⟩ => ⟨S1x256, .f32⟩
  | .hbm, ⟨44, _⟩ => ⟨S65536x256, .f32⟩
  | .hbm, ⟨45, _⟩ => ⟨S65536x256, .f32⟩
  | .hbm, ⟨46, _⟩ => ⟨S65536x256, .f32⟩
  | .hbm, ⟨47, _⟩ => ⟨S65536x256, .f32⟩
  | .hbm, ⟨48, _⟩ => ⟨S1x256, .f32⟩
  | .hbm, ⟨49, _⟩ => ⟨S65536x256, .f32⟩
  | .hbm, ⟨50, _⟩ => ⟨S65536x256, .f32⟩
  | .hbm, ⟨51, _⟩ => ⟨S65536x256, .f32⟩
  | .hbm, ⟨52, _⟩ => ⟨S65536x256, .f32⟩
  | .hbm, ⟨53, _⟩ => ⟨S_, .f32⟩
  | .hbm, ⟨54, _⟩ => ⟨S65536x256, .f32⟩
  | .hbm, ⟨55, _⟩ => ⟨S65536x256, .f32⟩
  | .hbm, ⟨56, _⟩ => ⟨S_, .f32⟩
  | .hbm, ⟨57, _⟩ => ⟨S65536x256, .f32⟩
  | .hbm, ⟨58, _⟩ => ⟨S65536x256, .f32⟩
  | .hbm, ⟨59, _⟩ => ⟨S65536x256, .f32⟩
  | .hbm, ⟨60, _⟩ => ⟨S1x256, .f32⟩
  | .hbm, ⟨61, _⟩ => ⟨S65536x256, .f32⟩
  | .hbm, ⟨62, _⟩ => ⟨S65536x256, .f32⟩
  | .hbm, ⟨63, _⟩ => ⟨S65536x256, .f32⟩
  | .hbm, ⟨64, _⟩ => ⟨S65536x256, .f32⟩
  | .hbm, ⟨65, _⟩ => ⟨S1x256, .f32⟩
  | .hbm, ⟨66, _⟩ => ⟨S65536x256, .f32⟩
  | .hbm, ⟨67, _⟩ => ⟨S65536x256, .f32⟩
  | .hbm, ⟨68, _⟩ => ⟨S65536x256, .f32⟩
  | .hbm, ⟨69, _⟩ => ⟨S65536x256, .f32⟩
  | .hbm, ⟨70, _⟩ => ⟨S_, .f32⟩
  | .hbm, ⟨71, _⟩ => ⟨S65536x256, .f32⟩
  | .hbm, ⟨72, _⟩ => ⟨S65536x256, .f32⟩
  | .hbm, ⟨73, _⟩ => ⟨S_, .f32⟩
  | .hbm, ⟨74, _⟩ => ⟨S65536x256, .f32⟩
  | .hbm, ⟨75, _⟩ => ⟨S65536x256, .f32⟩
  | .hbm, ⟨76, _⟩ => ⟨S65536x256, .f32⟩
  | .hbm, ⟨77, _⟩ => ⟨S65536x256, .f32⟩
  | .hbm, ⟨78, _⟩ => ⟨S1x256, .f32⟩
  | .hbm, ⟨79, _⟩ => ⟨S65536x256, .f32⟩
  | .hbm, ⟨80, _⟩ => ⟨S65536x256, .f32⟩
  | .hbm, ⟨81, _⟩ => ⟨S65536x256, .f32⟩
  | .hbm, ⟨82, _⟩ => ⟨S65536x256, .f32⟩
  | .hbm, ⟨83, _⟩ => ⟨S65536x128, .f32⟩
  | .hbm, ⟨84, _⟩ => ⟨S1x128, .f32⟩
  | .hbm, ⟨85, _⟩ => ⟨S65536x128, .f32⟩
  | .hbm, ⟨86, _⟩ => ⟨S65536x128, .f32⟩
  | .hbm, ⟨87, _⟩ => ⟨S65536x128, .f32⟩
  | .hbm, ⟨88, _⟩ => ⟨S65536x128, .f32⟩
  | .hbm, ⟨89, _⟩ => ⟨S_, .f32⟩
  | .hbm, ⟨90, _⟩ => ⟨S65536x128, .f32⟩
  | .hbm, ⟨91, _⟩ => ⟨S65536x128, .f32⟩
  | .hbm, ⟨92, _⟩ => ⟨S_, .f32⟩
  | .hbm, ⟨93, _⟩ => ⟨S65536x128, .f32⟩
  | .hbm, ⟨94, _⟩ => ⟨S65536x128, .f32⟩
  | .hbm, ⟨95, _⟩ => ⟨S128x65536, .f32⟩
  | _, _ => ⟨S256x65536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_call0_cst : Ref sig .tc := ⟨.hbm, 27, rfl⟩
abbrev main_call0_v0 : Ref sig .tc := ⟨.hbm, 28, rfl⟩
abbrev main_call0_v1 : Ref sig .tc := ⟨.hbm, 29, rfl⟩
abbrev main_call0_cst_0 : Ref sig .tc := ⟨.hbm, 30, rfl⟩
abbrev main_call0_v2 : Ref sig .tc := ⟨.hbm, 31, rfl⟩
abbrev main_call0_v3 : Ref sig .tc := ⟨.hbm, 32, rfl⟩
abbrev main_call0_cst_1 : Ref sig .tc := ⟨.hbm, 33, rfl⟩
abbrev main_call0_call0_v0 : Ref sig .tc := ⟨.hbm, 34, rfl⟩
abbrev main_call0_call0_v1 : Ref sig .tc := ⟨.hbm, 35, rfl⟩
abbrev main_call0_v4 : Ref sig .tc := ⟨.hbm, 36, rfl⟩
abbrev main_call0_v5 : Ref sig .tc := ⟨.hbm, 37, rfl⟩
abbrev main_call0_cst_2 : Ref sig .tc := ⟨.hbm, 38, rfl⟩
abbrev main_call0_v6 : Ref sig .tc := ⟨.hbm, 39, rfl⟩
abbrev main_call0_v7 : Ref sig .tc := ⟨.hbm, 40, rfl⟩
abbrev main_v5 : Ref sig .tc := ⟨.hbm, 41, rfl⟩
abbrev main_v6 : Ref sig .tc := ⟨.hbm, 42, rfl⟩
abbrev main_v7 : Ref sig .tc := ⟨.hbm, 43, rfl⟩
abbrev main_v8 : Ref sig .tc := ⟨.hbm, 44, rfl⟩
abbrev main_v9 : Ref sig .tc := ⟨.hbm, 45, rfl⟩
abbrev main_v10 : Ref sig .tc := ⟨.hbm, 46, rfl⟩
abbrev main_v11 : Ref sig .tc := ⟨.hbm, 47, rfl⟩
abbrev main_v12 : Ref sig .tc := ⟨.hbm, 48, rfl⟩
abbrev main_v13 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_cst : Ref sig .tc := ⟨.hbm, 53, rfl⟩
abbrev main_v17 : Ref sig .tc := ⟨.hbm, 54, rfl⟩
abbrev main_v18 : Ref sig .tc := ⟨.hbm, 55, rfl⟩
abbrev main_cst_0 : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_cst_1 : Ref sig .tc := ⟨.hbm, 70, rfl⟩
abbrev main_v32 : Ref sig .tc := ⟨.hbm, 71, rfl⟩
abbrev main_v33 : Ref sig .tc := ⟨.hbm, 72, rfl⟩
abbrev main_cst_2 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_cst_3 : Ref sig .tc := ⟨.hbm, 89, rfl⟩
abbrev main_v49 : Ref sig .tc := ⟨.hbm, 90, rfl⟩
abbrev main_v50 : Ref sig .tc := ⟨.hbm, 91, rfl⟩
abbrev main_cst_4 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩

abbrev nD : Nat := 1
abbrev τ : Topo := Topo.v7x

variable {F : FTy → Type} [FloatOps F]

class Facts₀ : Prop where
  transposes_S256x65536_S65536x256_1_0 : S256x65536.Transposes [1, 0] S65536x256
  bcast_S256_S1x256_1 : S256.BroadcastsInDim S1x256 (![1] : Fin 1 → Fin S1x256.rank)
  bcast_S1x256_S65536x256_0_1 : S1x256.BroadcastsInDim S65536x256 (![0, 1] : Fin 2 → Fin S65536x256.rank)
  bcast_S_S65536x256 : S_.BroadcastsInDim S65536x256 (![] : Fin 0 → Fin S65536x256.rank)
  bcast_S128_S1x128_1 : S128.BroadcastsInDim S1x128 (![1] : Fin 1 → Fin S1x128.rank)
  bcast_S1x128_S65536x128_0_1 : S1x128.BroadcastsInDim S65536x128 (![0, 1] : Fin 2 → Fin S65536x128.rank)
  bcast_S_S65536x128 : S_.BroadcastsInDim S65536x128 (![] : Fin 0 → Fin S65536x128.rank)
  transposes_S65536x128_S128x65536_1_0 : S65536x128.Transposes [1, 0] S128x65536
  dot_S65536x256_S256x256_S65536x256_1_0_0_1_n_n_wf : DotDims.WF S65536x256 S256x256 S65536x256 [1] [0] [0] [1] [] []
  dot_S65536x256_S256x128_S65536x128_1_0_0_1_n_n_wf : DotDims.WF S65536x256 S256x128 S65536x128 [1] [0] [0] [1] [] []

variable [Facts₀]

def dot_S65536x256_S256x256_S65536x256_1_0_0_1_n_n : DotDims S65536x256 S256x256 S65536x256 where
  lhsContracting := [1]
  rhsContracting := [0]
  lhsNonContracting := [0]
  rhsNonContracting := [1]
  lhsBatch := []
  rhsBatch := []
  wf := dot_S65536x256_S256x256_S65536x256_1_0_0_1_n_n_wf
def dot_S65536x256_S256x128_S65536x128_1_0_0_1_n_n : DotDims S65536x256 S256x128 S65536x128 where
  lhsContracting := [1]
  rhsContracting := [0]
  lhsNonContracting := [0]
  rhsNonContracting := [1]
  lhsBatch := []
  rhsBatch := []
  wf := dot_S65536x256_S256x128_S65536x128_1_0_0_1_n_n_wf

class Facts : Prop extends Facts₀ where

variable [Facts]
-- ==== Proof.Spec.lean ====
/-
  The function both programs compute, one batch row at a time, on the extended reals.

  A batch row `b` sees the input column `xr k = x[k, b]` and the memory row `mr k = mem[b, k]` (k < 256). With
  `lin u W c h = (∑ k, u k * W k h) + c h`:

    blockInp h = elu  (lin xr Winp binp h)
    inpGate  h = sigm (((lin xr Wig big h) + ∑ k, mr k * Wmig k h) + bmig h)
    readGate h = sigm (((lin xr Wrg brg h) + ∑ k, mr k * Wmrg k h) + bmrg h)
    decoded  h = (∑ k, (readGate k * mr k) * Wdec k h) + bdec h
    hidden   h = decoded h + blockInp h * inpGate h
    preOut   o = ∑ h, hidden h * Wout h o                            (o < 128)
    rowOut   o = sigm (preOut o + bout o)

  where `sigm v = 1 / (1 + e^(-v))` and `elu v = v` when `0 < v`, `e^v - 1` otherwise. The sums are sums in the
  commutative monoid of the extended reals, so their order does not matter; the additions between them are kept in the
  association both programs use. No law here needs a finite operand: the two spellings of each activation differ by
  `0 - v = -v` and by `1 * y = y`, which hold at the infinities too.
-/
import Idealize.ShloMosaic.PureOps.Ideal
import Idealize.ShloMosaic.PureOps.Ideal.Laws
import Idealize.ShloMosaic.Lib.ValueIdx

noncomputable section

namespace Cert.Spec

open Idealize.ShloMosaic

/-- The f32 pattern of `1.0` is the real number one. -/
theorem one_f32 : Ideal.ofBits .f32 0x3F800000#32 = 1 := by
  simp [Ideal.ofBits, Ideal.ieee, -EReal.coe_mul]; norm_num

/-- The f32 pattern of `0.0` is zero. -/
theorem zero_f32 : Ideal.ofBits .f32 0x00000000#32 = 0 := Ideal.ofBits_zero_f32

/-- The logistic function as both programs spell it: `1 / (1 + e^(-v))`, with the quotient of the extended reals. -/
def sigm (v : EReal) : EReal := Ideal.div 1 (1 + Ideal.exp (-v))

/-- The exponential linear unit: `v` where `0 < v`, `e^v - 1` elsewhere (a comparison of extended reals, as a mask bit). -/
def elu (v : EReal) : EReal := Scalar.select (Ideal.cmp .ogt v 0) v (Ideal.exp v - 1)

/-- The kernel's spelling of the logistic function negates by subtracting from zero. -/
theorem sigm_of_sub (v : EReal) :
    Ideal.div (Ideal.ofBits .f32 0x3F800000#32)
      (Ideal.ofBits .f32 0x3F800000#32 + Ideal.exp (Ideal.ofBits .f32 0x00000000#32 - v)) = sigm v := by
  rw [one_f32, zero_f32, zero_sub]; rfl

/-- The reference's spelling of the logistic function negates outright. -/
theorem sigm_of_neg (v : EReal) :
    Ideal.div (Ideal.ofBits .f32 0x3F800000#32) (Ideal.ofBits .f32 0x3F800000#32 + Ideal.exp (-v)) = sigm v := by
  rw [one_f32]; rfl

/-- The kernel's spelling of the exponential linear unit. -/
theorem elu_of_sub (v : EReal) :
    Scalar.select (Ideal.cmp .ogt v (Ideal.ofBits .f32 0x00000000#32)) v
      (Ideal.exp v - Ideal.ofBits .f32 0x3F800000#32) = elu v := by
  rw [one_f32, zero_f32]; rfl

/-- The reference's spelling: where the mask is off, `1 * (e^w - 1)` with `w` the input guarded by the same mask, which
    there is the input itself. -/
theorem elu_of_guard (v : EReal) :
    Scalar.select (Ideal.cmp .ogt v (Ideal.ofBits .f32 0x00000000#32)) v
      (Ideal.ofBits .f32 0x3F800000#32 *
        (Ideal.exp (Scalar.select (Ideal.cmp .ogt v (Ideal.ofBits .f32 0x00000000#32))
          (Ideal.ofBits .f32 0x00000000#32) v) - 1)) = elu v := by
  rw [one_f32, zero_f32]
  unfold elu
  by_cases h : Ideal.cmp .ogt v 0 = 1#1
  · rw [h, ValueIdx.select_one, ValueIdx.select_one]
  · rw [ValueIdx.eq_zero_of_ne_one h, ValueIdx.select_zero, ValueIdx.select_zero, ValueIdx.select_zero, one_mul]

section Row

variable (xr mr : Fin 256 → EReal)
  (Wig : Fin 256 → Fin 256 → EReal) (big : Fin 256 → EReal)
  (Wmig : Fin 256 → Fin 256 → EReal) (bmig : Fin 256 → EReal)
  (Winp : Fin 256 → Fin 256 → EReal) (binp : Fin 256 → EReal)
  (Wrg : Fin 256 → Fin 256 → EReal) (brg : Fin 256 → EReal)
  (Wmrg : Fin 256 → Fin 256 → EReal) (bmrg : Fin 256 → EReal)
  (Wdec : Fin 256 → Fin 256 → EReal) (bdec : Fin 256 → EReal)
  (Wout : Fin 256 → Fin 128 → EReal) (bout : Fin 128 → EReal)

/-- The block input: the exponential linear unit of the input's affine image. -/
def blockInp (h : Fin 256) : EReal := elu ((∑ k : Fin 256, xr k * Winp k h) + binp h)

/-- A gate: the logistic function of the input's affine image plus the memory's affine image, added in the order
    (input product + input bias) + memory product, then + memory bias. -/
def gate (W : Fin 256 → Fin 256 → EReal) (c : Fin 256 → EReal) (Wm : Fin 256 → Fin 256 → EReal) (cm : Fin 256 → EReal)
    (h : Fin 256) : EReal :=
  sigm ((((∑ k : Fin 256, xr k * W k h) + c h) + ∑ k : Fin 256, mr k * Wm k h) + cm h)

/-- The decoded memory: the memory row, scaled entry by entry by the read gate, through the decoder. -/
def decoded (h : Fin 256) : EReal :=
  (∑ k : Fin 256, (gate xr mr Wrg brg Wmrg bmrg k * mr k) * Wdec k h) + bdec h

/-- The hidden activation: decoded memory plus gated block input. -/
def hidden (h : Fin 256) : EReal :=
  decoded xr mr Wrg brg Wmrg bmrg Wdec bdec h + blockInp xr Winp binp h * gate xr mr Wig big Wmig bmig h

/-- The hidden activation through the output matrix, before the output bias. -/
def preOut (o : Fin 128) : EReal :=
  ∑ h : Fin 256, hidden xr mr Wig big Wmig bmig Winp binp Wrg brg Wmrg bmrg Wdec bdec h * Wout h o

/-- One batch row's output: the logistic function of the hidden activation's affine image. -/
def rowOut (o : Fin 128) : EReal :=
  sigm (preOut xr mr Wig big Wmig bmig Winp binp Wrg brg Wmrg bmrg Wdec bdec Wout o + bout o)

end Row

end Cert.Spec

end
-- ==== Proof.KernelPay.lean ====
/-
  The kernel body's last product, read at one index, is the row function's pre-output.

  The body's arithmetic on the loaded blocks is one pure term: seven matrix products into zero accumulators, four bias rows
  (a [256] row cast to [1,256] and broadcast over the 2048 rows), two logistic gates spelt 1 / (1 + e^(0 - v)), one
  exponential linear unit spelt select (v > 0, v, e^v - 1), narrowings of the format that are the identity on the extended
  reals, and one transpose of the input block. Read at (p, o) it is, for batch row p, with the input column
  xr k = x[k, p] and the memory row mr k = mem[p, k],

      ∑ h, hidden h * Wout h o,

  the function Cert.Spec.preOut of the loaded blocks. The steps: each of the two product shapes at an index is the sum over
  the contracted coordinate (the contraction index re-indexed by its one coordinate); a bias row at (p, h) is the row at h;
  the transposed input at (p, k) is the input at (k, p); each activation at an index is the scalar activation of the
  element; then the stages compose by congruence, sum by sum.
-/
import proofs.«100165_j79791902425371_1_alg».proof.Proof.Gen.KernelIdeal.Skeleton
import proofs.«100165_j79791902425371_1_alg».proof.Proof.Spec
import Idealize.ShloMosaic.Lib.ValueIdx
import Idealize.ShloMosaic.Lib.Pipeline.Value
import Idealize.ShloMosaic.Lib.ValueLayout
import Idealize.ShloMosaic.PureOps.Ideal.Laws

namespace Cert.KernelIdeal.Pay
open Cert.KernelIdeal Cert.KernelIdeal.Gen Idealize.ShloMosaic Idealize.ShloMosaic.ValueIdx

/-! ## The two product records at an index -/

/-- The [2048,256] × [256,256] product into the zero accumulator, at (p, h): the sum over the contracted coordinate. -/
theorem mm256_apply {φ₁ φ₂ : FTy} (A : FVec Ideal S2048x256 φ₁) (B : FVec Ideal S256x256 φ₂) (p : Fin 2048) (h : Fin 256) :
    matmul dot_S2048x256_S256x256_S2048x256_1_0_0_1_n_n none A B (constant S2048x256 .f32 0x00000000#32) (ix2 p h)
      = ∑ k : Fin 256, A (ix2 p k) * B (ix2 k h) := by
  refine (Ideal.matmul_constant_zero_apply _ none A B (ix2 p h)).trans ?_
  rw [← Equiv.sum_comp (contrEquiv1 dot_S2048x256_S256x256_S2048x256_1_0_0_1_n_n 256 rfl rfl).symm]
  refine Finset.sum_congr rfl fun c _ => ?_
  have c2 := contrEquiv1_symm_val dot_S2048x256_S256x256_S2048x256_1_0_0_1_n_n 256 rfl rfl c
  have l2 : dot_S2048x256_S256x256_S2048x256_1_0_0_1_n_n.lhsIdx (ix2 p h) ((contrEquiv1 _ 256 rfl rfl).symm c) = ix2 p c := by
    funext ax; apply Fin.ext
    match ax with
    | ⟨0, _⟩ => simp [DotDims.lhsIdx, dot_S2048x256_S256x256_S2048x256_1_0_0_1_n_n]; rfl
    | ⟨1, _⟩ => simp [DotDims.lhsIdx, dot_S2048x256_S256x256_S2048x256_1_0_0_1_n_n]; exact c2
  have r2 : dot_S2048x256_S256x256_S2048x256_1_0_0_1_n_n.rhsIdx (ix2 p h) ((contrEquiv1 _ 256 rfl rfl).symm c) = ix2 c h := by
    funext ax; apply Fin.ext
    match ax with
    | ⟨0, _⟩ => simp [DotDims.rhsIdx, dot_S2048x256_S256x256_S2048x256_1_0_0_1_n_n]; exact c2
    | ⟨1, _⟩ => simp [DotDims.rhsIdx, dot_S2048x256_S256x256_S2048x256_1_0_0_1_n_n]; rfl
  rw [l2, r2]

/-- The [2048,256] × [256,128] product into the zero accumulator, at (p, o): the sum over the contracted coordinate. -/
theorem mm128_apply {φ₁ φ₂ : FTy} (A : FVec Ideal S2048x256 φ₁) (B : FVec Ideal S256x128 φ₂) (p : Fin 2048) (o : Fin 128) :
    matmul dot_S2048x256_S256x128_S2048x128_1_0_0_1_n_n none A B (constant S2048x128 .f32 0x00000000#32) (ix2 p o)
      = ∑ k : Fin 256, A (ix2 p k) * B (ix2 k o) := by
  refine (Ideal.matmul_constant_zero_apply _ none A B (ix2 p o)).trans ?_
  rw [← Equiv.sum_comp (contrEquiv1 dot_S2048x256_S256x128_S2048x128_1_0_0_1_n_n 256 rfl rfl).symm]
  refine Finset.sum_congr rfl fun c _ => ?_
  have c2 := contrEquiv1_symm_val dot_S2048x256_S256x128_S2048x128_1_0_0_1_n_n 256 rfl rfl c
  have l2 : dot_S2048x256_S256x128_S2048x128_1_0_0_1_n_n.lhsIdx (ix2 p o) ((contrEquiv1 _ 256 rfl rfl).symm c) = ix2 p c := by
    funext ax; apply Fin.ext
    match ax with
    | ⟨0, _⟩ => simp [DotDims.lhsIdx, dot_S2048x256_S256x128_S2048x128_1_0_0_1_n_n]; rfl
    | ⟨1, _⟩ => simp [DotDims.lhsIdx, dot_S2048x256_S256x128_S2048x128_1_0_0_1_n_n]; exact c2
  have r2 : dot_S2048x256_S256x128_S2048x128_1_0_0_1_n_n.rhsIdx (ix2 p o) ((contrEquiv1 _ 256 rfl rfl).symm c) = ix2 c o := by
    funext ax; apply Fin.ext
    match ax with
    | ⟨0, _⟩ => simp [DotDims.rhsIdx, dot_S2048x256_S256x128_S2048x128_1_0_0_1_n_n]; exact c2
    | ⟨1, _⟩ => simp [DotDims.rhsIdx, dot_S2048x256_S256x128_S2048x128_1_0_0_1_n_n]; rfl
  rw [l2, r2]

/-! ## The bias row, the transposed input, an affine image -/

/-- A [256] row cast to [1,256] and broadcast over 2048 rows reads, at (p, h), the row at h. -/
theorem bias_apply (b : Vec Ideal S256 .f32) (p : Fin 2048) (h : Fin 256) :
    broadcastTo S2048x256 (shapeCast S1x256 b shapeCasts_S256_S1x256) broadcasts_S1x256_S2048x256 (ix2 p h) = b (ix1 h) :=
  (broadcastTo_1b_ab_apply _ broadcasts_S1x256_S2048x256 p h).trans (shapeCast_a_1a_apply b shapeCasts_S256_S1x256 0 h)

/-- The transposed input block, narrowed (the identity here), reads at (p, k) the input at (k, p). -/
theorem xT_apply (P1 : Vec Ideal S256x2048 .f32) (p : Fin 2048) (k : Fin 256) :
    (truncf .bf16 (transpose S2048x256 [1, 0] P1 transposes_S256x2048_p1_0_S2048x256) bitsLt_bf16_f32 : FVec Ideal S2048x256 .bf16)
      (ix2 p k) = P1 (ix2 k p) :=
  transpose_ix2_apply P1 transposes_S256x2048_p1_0_S2048x256 p k

/-- A product plus a bias row at (p, h): the affine image of row p of the left operand. -/
theorem lin_apply {φ₁ φ₂ : FTy} (A : FVec Ideal S2048x256 φ₁) (W : FVec Ideal S256x256 φ₂) (b : Vec Ideal S256 .f32)
    (p : Fin 2048) (h : Fin 256) :
    addf (matmul dot_S2048x256_S256x256_S2048x256_1_0_0_1_n_n none A W (constant S2048x256 .f32 0x00000000#32))
        (broadcastTo S2048x256 (shapeCast S1x256 b shapeCasts_S256_S1x256) broadcasts_S1x256_S2048x256) (ix2 p h)
      = (∑ k : Fin 256, A (ix2 p k) * W (ix2 k h)) + b (ix1 h) :=
  congrArg₂ (· + ·) (mm256_apply A W p h) (bias_apply b p h)

/-- The same with the transposed input as the left operand and a narrowed weight: the input column's affine image. -/
theorem linX_apply (P1 : Vec Ideal S256x2048 .f32) (W : Vec Ideal S256x256 .f32) (b : Vec Ideal S256 .f32)
    (p : Fin 2048) (h : Fin 256) :
    addf (matmul dot_S2048x256_S256x256_S2048x256_1_0_0_1_n_n none
          (truncf .bf16 (transpose S2048x256 [1, 0] P1 transposes_S256x2048_p1_0_S2048x256) bitsLt_bf16_f32 : FVec Ideal S2048x256 .bf16)
          (truncf .bf16 W bitsLt_bf16_f32 : FVec Ideal S256x256 .bf16) (constant S2048x256 .f32 0x00000000#32))
        (broadcastTo S2048x256 (shapeCast S1x256 b shapeCasts_S256_S1x256) broadcasts_S1x256_S2048x256) (ix2 p h)
      = (∑ k : Fin 256, P1 (ix2 k p) * W (ix2 k h)) + b (ix1 h) :=
  (lin_apply _ _ b p h).trans
    (congrArg (· + b (ix1 h)) (Finset.sum_congr rfl fun k _ => congrArg (· * W (ix2 k h)) (xT_apply P1 p k)))

/-! ## The two activations over a vector -/

/-- The logistic gate as the body spells it, at any index. -/
theorem sigmV_apply {s : Shape} (V : FVec Ideal s .f32) (i : s.Idx) :
    divf (broadcast s (Scalar.ofBits (F := Ideal) .f32 0x3F800000#32))
        (addf (broadcast s (Scalar.ofBits (F := Ideal) .f32 0x3F800000#32))
          (exp (subf (broadcast s (Scalar.ofBits (F := Ideal) .f32 0x00000000#32)) V))) i
      = Cert.Spec.sigm (V i) :=
  Cert.Spec.sigm_of_sub (V i)

/-- The exponential linear unit as the body spells it, at any index. -/
theorem eluV_apply {s : Shape} (V : FVec Ideal s .f32) (i : s.Idx) :
    select (cmpf .ogt V (broadcast s (Scalar.ofBits (F := Ideal) .f32 0x00000000#32))) V
        (subf (exp V) (broadcast s (Scalar.ofBits (F := Ideal) .f32 0x3F800000#32))) i
      = Cert.Spec.elu (V i) :=
  Cert.Spec.elu_of_sub (V i)

/-! ## The two payloads computed from the input block alone -/

/-- The block input at (p, h). -/
theorem pay9_apply (P1 : Vec Ideal S256x2048 .f32) (P7 : Vec Ideal S256x256 .f32) (P8 : Vec Ideal S256 .f32)
    (p : Fin 2048) (h : Fin 256) :
    k0_pay9 (F := Ideal) P1 P7 P8 (ix2 p h)
      = Cert.Spec.blockInp (fun k => P1 (ix2 k p)) (fun k h => P7 (ix2 k h)) (fun h => P8 (ix1 h)) h :=
  (eluV_apply _ (ix2 p h)).trans (congrArg Cert.Spec.elu (linX_apply P1 P7 P8 p h))

/-- The input's affine image under the input gate's weights at (p, h). -/
theorem pay10_apply (P1 : Vec Ideal S256x2048 .f32) (P9 : Vec Ideal S256x256 .f32) (P10 : Vec Ideal S256 .f32)
    (p : Fin 2048) (h : Fin 256) :
    k0_pay10 (F := Ideal) P1 P9 P10 (ix2 p h) = (∑ k : Fin 256, P1 (ix2 k p) * P9 (ix2 k h)) + P10 (ix1 h) :=
  linX_apply P1 P9 P10 p h

/-! ## A gate, the hidden activation, the output product -/

/-- A gate at (p, h): the logistic function of (input's affine image + memory's product) + memory's bias. -/
theorem gate_apply (P1 : Vec Ideal S256x2048 .f32) (P0 : Vec Ideal S2048x256 .f32)
    (W : Vec Ideal S256x256 .f32) (c : Vec Ideal S256 .f32) (Wm : Vec Ideal S256x256 .f32) (cm : Vec Ideal S256 .f32)
    (p : Fin 2048) (h : Fin 256) :
    divf (broadcast S2048x256 (Scalar.ofBits (F := Ideal) .f32 0x3F800000#32))
        (addf (broadcast S2048x256 (Scalar.ofBits (F := Ideal) .f32 0x3F800000#32))
          (exp (subf (broadcast S2048x256 (Scalar.ofBits (F := Ideal) .f32 0x00000000#32))
            (addf
              (addf
                (addf (matmul dot_S2048x256_S256x256_S2048x256_1_0_0_1_n_n none
                    (truncf .bf16 (transpose S2048x256 [1, 0] P1 transposes_S256x2048_p1_0_S2048x256) bitsLt_bf16_f32 : FVec Ideal S2048x256 .bf16)
                    (truncf .bf16 W bitsLt_bf16_f32 : FVec Ideal S256x256 .bf16) (constant S2048x256 .f32 0x00000000#32))
                  (broadcastTo S2048x256 (shapeCast S1x256 c shapeCasts_S256_S1x256) broadcasts_S1x256_S2048x256))
                (matmul dot_S2048x256_S256x256_S2048x256_1_0_0_1_n_n none
                  (truncf .bf16 P0 bitsLt_bf16_f32 : FVec Ideal S2048x256 .bf16)
                  (truncf .bf16 Wm bitsLt_bf16_f32 : FVec Ideal S256x256 .bf16) (constant S2048x256 .f32 0x00000000#32)))
              (broadcastTo S2048x256 (shapeCast S1x256 cm shapeCasts_S256_S1x256) broadcasts_S1x256_S2048x256))))) (ix2 p h)
      = Cert.Spec.gate (fun k => P1 (ix2 k p)) (fun k => P0 (ix2 p k)) (fun k h => W (ix2 k h)) (fun h => c (ix1 h))
          (fun k h => Wm (ix2 k h)) (fun h => cm (ix1 h)) h :=
  (sigmV_apply _ (ix2 p h)).trans (congrArg Cert.Spec.sigm
    (congrArg₂ (· + ·)
      (congrArg₂ (· + ·) (linX_apply P1 W c p h)
        (mm256_apply (truncf .bf16 P0 bitsLt_bf16_f32 : FVec Ideal S2048x256 .bf16)
          (truncf .bf16 Wm bitsLt_bf16_f32 : FVec Ideal S256x256 .bf16) p h))
      (bias_apply cm p h)))

/-- The hidden activation's last sum at (p, h), over vector variables for the two gates and the block input. -/
theorem hiddenV_apply (G2 B G1 : FVec Ideal S2048x256 .f32) (P0 : Vec Ideal S2048x256 .f32) (P5 : Vec Ideal S256x256 .f32)
    (P14 : Vec Ideal S256 .f32) (p : Fin 2048) (h : Fin 256) :
    addf
        (addf (matmul dot_S2048x256_S256x256_S2048x256_1_0_0_1_n_n none
            (truncf .bf16 (mulf G2 P0) bitsLt_bf16_f32 : FVec Ideal S2048x256 .bf16)
            (truncf .bf16 P5 bitsLt_bf16_f32 : FVec Ideal S256x256 .bf16) (constant S2048x256 .f32 0x00000000#32))
          (broadcastTo S2048x256 (shapeCast S1x256 P14 shapeCasts_S256_S1x256) broadcasts_S1x256_S2048x256))
        (mulf B G1) (ix2 p h)
      = ((∑ k : Fin 256, (G2 (ix2 p k) * P0 (ix2 p k)) * P5 (ix2 k h)) + P14 (ix1 h)) + B (ix2 p h) * G1 (ix2 p h) :=
  congrArg (· + B (ix2 p h) * G1 (ix2 p h)) (lin_apply _ _ P14 p h)

/-- The payload the output bias and logistic function are applied to, at (p, o): the row function's pre-output. -/
theorem pay11_apply
    (P0 : Vec Ideal S2048x256 .f32) (P1 : Vec Ideal S256x2048 .f32) (P2 P3 P4 P5 : Vec Ideal S256x256 .f32)
    (P6 : Vec Ideal S256x128 .f32) (P7 : Vec Ideal S256x256 .f32) (P8 : Vec Ideal S256 .f32) (P9 : Vec Ideal S256x256 .f32)
    (P10 P11 P12 P13 P14 : Vec Ideal S256 .f32) (p : Fin 2048) (o : Fin 128) :
    k0_pay11 (F := Ideal) P0
      (truncf .bf16 (transpose S2048x256 [1, 0] P1 transposes_S256x2048_p1_0_S2048x256) bitsLt_bf16_f32)
      (truncf .bf16 P0 bitsLt_bf16_f32) (truncf .bf16 P2 bitsLt_bf16_f32) (truncf .bf16 P3 bitsLt_bf16_f32)
      (truncf .bf16 P4 bitsLt_bf16_f32) (truncf .bf16 P5 bitsLt_bf16_f32) (truncf .bf16 P6 bitsLt_bf16_f32)
      (k0_pay9 P1 P7 P8) (k0_pay10 P1 P9 P10) P11 P12 P13 P14 (ix2 p o)
    = Cert.Spec.preOut (fun k => P1 (ix2 k p)) (fun k => P0 (ix2 p k))
        (fun k h => P9 (ix2 k h)) (fun h => P10 (ix1 h))
        (fun k h => P2 (ix2 k h)) (fun h => P11 (ix1 h))
        (fun k h => P7 (ix2 k h)) (fun h => P8 (ix1 h))
        (fun k h => P3 (ix2 k h)) (fun h => P12 (ix1 h))
        (fun k h => P4 (ix2 k h)) (fun h => P13 (ix1 h))
        (fun k h => P5 (ix2 k h)) (fun h => P14 (ix1 h))
        (fun k o => P6 (ix2 k o)) o := by
  refine (mm128_apply _ _ p o).trans ?_
  unfold Cert.Spec.preOut
  refine Finset.sum_congr rfl fun h _ => congrArg (· * P6 (ix2 h o)) ?_
  refine (hiddenV_apply _ _ _ P0 P5 P14 p h).trans ?_
  unfold Cert.Spec.hidden Cert.Spec.decoded
  exact congrArg₂ (· + ·)
    (congrArg (· + P14 (ix1 h)) (Finset.sum_congr rfl fun k _ =>
      congrArg (· * P5 (ix2 k h)) (congrArg (· * P0 (ix2 p k)) (gate_apply P1 P0 P3 P12 P4 P13 p k))))
    (congrArg₂ (· * ·) (pay9_apply P1 P7 P8 p h) (gate_apply P1 P0 P9 P10 P2 P11 p h))

end Cert.KernelIdeal.Pay
-- ==== Proof.KernelArray.lean ====
/-
  The kernel's output array as one function of the argument arrays.

  The grid has 32 points along the batch axis. Point `t` stages columns [2048 t, 2048 t + 2048) of the input [256, 65536], rows
  [2048 t, 2048 t + 2048) of the memory [65536, 256], every weight and bias whole, and writes back columns [2048 t, 2048 t + 2048)
  of the output [128, 65536]. Inside a block, output entry (o, p) is the row function `Cert.Spec.rowOut` of column `p` of the
  input block and row `p` of the memory block; read through the windows that is column `2048 t + p` of the input array and row
  `2048 t + p` of the memory array, the batch index of the entry written. The 32 blocks tile the output, so the array ends
  holding `G`: entry (o, b) is `rowOut` of column `b` of the input and row `b` of the memory.
-/
import proofs.«100165_j79791902425371_1_alg».proof.Proof.Gen.KernelIdeal.Value
import proofs.«100165_j79791902425371_1_alg».proof.Proof.KernelPay
import proofs.«100165_j79791902425371_1_alg».proof.Proof.Spec
import Idealize.ShloMosaic.Lib.ValueIdx
import Idealize.ShloMosaic.Lib.Pipeline.Value

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)
open Cert.KernelIdeal.Pay

/-- Entry (o, b) of the result: the row function of column `b` of the input and row `b` of the memory. -/
def G (A0 : S256x65536.Idx → EReal) (A1 : S65536x256.Idx → EReal)
    (A2 : S256x256.Idx → EReal) (A3 : S256.Idx → EReal) (A4 : S256x256.Idx → EReal) (A5 : S256.Idx → EReal)
    (A6 : S256x256.Idx → EReal) (A7 : S256.Idx → EReal) (A8 : S256x256.Idx → EReal) (A9 : S256.Idx → EReal)
    (A10 : S256x256.Idx → EReal) (A11 : S256.Idx → EReal) (A12 : S256x256.Idx → EReal) (A13 : S256.Idx → EReal)
    (A20 : S256x128.Idx → EReal) (A21 : S128.Idx → EReal) (o : Fin 128) (b : Fin 65536) : EReal :=
  Cert.Spec.rowOut (fun k => A0 (ix2 k b)) (fun k => A1 (ix2 b k))
    (fun k h => A2 (ix2 k h)) (fun h => A3 (ix1 h)) (fun k h => A4 (ix2 k h)) (fun h => A5 (ix1 h))
    (fun k h => A6 (ix2 k h)) (fun h => A7 (ix1 h)) (fun k h => A8 (ix2 k h)) (fun h => A9 (ix1 h))
    (fun k h => A10 (ix2 k h)) (fun h => A11 (ix1 h)) (fun k h => A12 (ix2 k h)) (fun h => A13 (ix1 h))
    (fun k o => A20 (ix2 k o)) (fun o => A21 (ix1 o)) o

theorem hz2 : (![0, 0] : Fin 2 → Nat) = fun _ => 0 := funext fun a => by fin_cases a <;> rfl
theorem hz1 : (![0] : Fin 1 → Nat) = fun _ => 0 := funext fun a => by fin_cases a; rfl

/-- What the body leaves in the output block, entry (o, p), for any blocks: the row function of column `p` of the input block
    and row `p` of the memory block. -/
theorem block_apply (x0 : Vec Ideal S256x2048 .f32) (x1 : Vec Ideal S2048x256 .f32) (x2 : Vec Ideal S256x256 .f32)
    (x3 : Vec Ideal S256 .f32) (x4 : Vec Ideal S256x256 .f32) (x5 : Vec Ideal S256 .f32) (x6 : Vec Ideal S256x256 .f32)
    (x7 : Vec Ideal S256 .f32) (x8 : Vec Ideal S256x256 .f32) (x9 : Vec Ideal S256 .f32) (x10 : Vec Ideal S256x256 .f32)
    (x11 : Vec Ideal S256 .f32) (x12 : Vec Ideal S256x256 .f32) (x13 : Vec Ideal S256 .f32) (x14 : Vec Ideal S256x128 .f32)
    (x15 : Vec Ideal S128 .f32) (o : Fin 128) (p : Fin 2048) :
    out0_16 x0 x1 x2 x3 x4 x5 x6 x7 x8 x9 x10 x11 x12 x13 x14 x15 (ix2 o p)
      = Cert.Spec.rowOut (fun k => x0 (ix2 k p)) (fun k => x1 (ix2 p k))
          (fun k h => x2 (ix2 k h)) (fun h => x3 (ix1 h)) (fun k h => x4 (ix2 k h)) (fun h => x5 (ix1 h))
          (fun k h => x6 (ix2 k h)) (fun h => x7 (ix1 h)) (fun k h => x8 (ix2 k h)) (fun h => x9 (ix1 h))
          (fun k h => x10 (ix2 k h)) (fun h => x11 (ix1 h)) (fun k h => x12 (ix2 k h)) (fun h => x13 (ix1 h))
          (fun k o => x14 (ix2 k o)) (fun o => x15 (ix1 o)) o := by
  unfold out0_16
  simp only [View.ld_unit_zero (S := S256x2048) hz2, View.ld_unit_zero (S := S2048x256) hz2,
    View.ld_unit_zero (S := S256x256) hz2, View.ld_unit_zero (S := S256x128) hz2,
    View.ld_unit_zero (S := S256) hz1, View.ld_unit_zero (S := S128) hz1]
  rw [Value.canon16_eq]
  have e0 : Value.ix16_0 (ix2 o p) = ix2 p o := funext fun a => Fin.ext (by match a with | ⟨0, _⟩ => rfl | ⟨1, _⟩ => rfl)
  have e1 : Value.ix16_1 (ix2 o p) = ix1 o := funext fun a => Fin.ext (by match a with | ⟨0, _⟩ => rfl)
  show Ideal.div (Ideal.ofBits .f32 0x3F800000#32) (Ideal.ofBits .f32 0x3F800000#32
      + Ideal.exp (Ideal.ofBits .f32 0x00000000#32 - (_ + x15 (Value.ix16_1 (ix2 o p))))) = _
  rw [e0, e1, pay11_apply, Cert.Spec.sigm_of_sub]
  rfl

variable (m : (ℓ : Loc nD τ sig) → Buf (Elt Ideal) ℓ) (ρ : Dev nD → PrngReg)

/-- The printed index maps, decided over the 32 points: the input's block moves along its axis 1 and the memory's along its
    axis 0 with the output's block along its axis 1; the other axes stay at block 0. -/
theorem idx_moving : ∀ t : Fin cfg0.N,
    win0_0.index t (0 : Fin 2) = 0 ∧ win0_0.index t (1 : Fin 2) = win0_16.index t (1 : Fin 2)
    ∧ win0_1.index t (0 : Fin 2) = win0_16.index t (1 : Fin 2) ∧ win0_1.index t (1 : Fin 2) = 0
    ∧ win0_16.index t (0 : Fin 2) = 0 ∧ win0_16.index t (1 : Fin 2) ≤ 31 :=
  (by decide +kernel : ∀ t : Fin grid0.N, _)

/-- The weights' and biases' windows stay at block 0 at every point. -/
theorem idx_fixed : ∀ t : Fin cfg0.N,
    win0_2.index t = ![0, 0] ∧ win0_3.index t = ![0] ∧ win0_4.index t = ![0, 0] ∧ win0_5.index t = ![0]
    ∧ win0_6.index t = ![0, 0] ∧ win0_7.index t = ![0] ∧ win0_8.index t = ![0, 0] ∧ win0_9.index t = ![0]
    ∧ win0_10.index t = ![0, 0] ∧ win0_11.index t = ![0] ∧ win0_12.index t = ![0, 0] ∧ win0_13.index t = ![0]
    ∧ win0_14.index t = ![0, 0] ∧ win0_15.index t = ![0] :=
  (by decide +kernel : ∀ t : Fin grid0.N, _)

/-- Every column block of the output is some point's. -/
theorem idx_onto : ∀ q : Fin 32, ∃ t : Fin cfg0.N, win0_16.index t = ![0, q.val] :=
  (by decide +kernel : ∀ q : Fin 32, ∃ t : Fin grid0.N, win0_16.index t = ![0, q.val])

/-- WHAT POINT `t` WRITES BACK is block `t` of `G` of the argument arrays. -/
theorem flushed_eq (c : Dev nD) (t : Fin cfg0.N) :
    (dats m 0 c).flushed 16 t = ((cfg0.win 16).blk t).view.read (Elt Ideal)
      (fun i => G (V m c main_arg0) (V m c main_arg1) (V m c main_arg2) (V m c main_arg3) (V m c main_arg4) (V m c main_arg5) (V m c main_arg6) (V m c main_arg7) (V m c main_arg8) (V m c main_arg9) (V m c main_arg10) (V m c main_arg11) (V m c main_arg12) (V m c main_arg13) (V m c main_arg20) (V m c main_arg21) (i 0) (i 1)) := by
  rw [Value.flushed16]
  funext j
  obtain ⟨o, p, rfl⟩ : ∃ (o : Fin 128) (p : Fin 2048), j = ix2 o p := ⟨j 0, j 1, eq_ix2 j⟩
  obtain ⟨e00, e01, e10, e11, e160, e161⟩ := idx_moving t
  obtain ⟨f2, f3, f4, f5, f6, f7, f8, f9, f10, f11, f12, f13, f14, f15⟩ := idx_fixed t
  -- the batch index of the entry written, and its row
  have hb : (((cfg0.win 16).blk t).view.emb (ix2 o p) 1).val = win0_16.index t (1 : Fin 2) * 2048 + 1 * p.val := rfl
  have ho : ((cfg0.win 16).blk t).view.emb (ix2 o p) 0 = o :=
    Fin.ext (by show win0_16.index t (0 : Fin 2) * 128 + 1 * o.val = o.val; omega)
  have h0 : ∀ k : Fin 256, iblk m c 0 t (ix2 k p)
      = V m c main_arg0 (ix2 k (((cfg0.win 16).blk t).view.emb (ix2 o p) 1)) := fun k => by
    show V m c main_arg0 (((cfg0.win 0).blk t).view.emb (ix2 k p)) = _
    refine congrArg (V m c main_arg0) (funext fun a => Fin.ext ?_)
    match a with
    | ⟨0, _⟩ => show win0_0.index t (0 : Fin 2) * 256 + 1 * k.val = k.val; omega
    | ⟨1, _⟩ => show win0_0.index t (1 : Fin 2) * 2048 + 1 * p.val = _; rw [hb, e01]
  have h1 : ∀ k : Fin 256, iblk m c 1 t (ix2 p k)
      = V m c main_arg1 (ix2 (((cfg0.win 16).blk t).view.emb (ix2 o p) 1) k) := fun k => by
    show V m c main_arg1 (((cfg0.win 1).blk t).view.emb (ix2 p k)) = _
    refine congrArg (V m c main_arg1) (funext fun a => Fin.ext ?_)
    match a with
    | ⟨0, _⟩ => show win0_1.index t (0 : Fin 2) * 2048 + 1 * p.val = _; rw [hb, e10]
    | ⟨1, _⟩ => show win0_1.index t (1 : Fin 2) * 256 + 1 * k.val = k.val; omega
  have h2 : ∀ (k : Fin 256) (h : Fin 256), iblk m c 2 t (ix2 k h) = V m c main_arg2 (ix2 k h) := fun k h => by
    show V m c main_arg2 (((cfg0.win 2).blk t).view.emb (ix2 k h)) = _
    refine congrArg (V m c main_arg2) (funext fun a => Fin.ext ?_)
    have q0 : win0_2.index t (0 : Fin 2) = 0 := congrFun f2 0
    have q1 : win0_2.index t (1 : Fin 2) = 0 := congrFun f2 1
    match a with
    | ⟨0, _⟩ => show win0_2.index t (0 : Fin 2) * 256 + 1 * k.val = k.val; omega
    | ⟨1, _⟩ => show win0_2.index t (1 : Fin 2) * 256 + 1 * h.val = h.val; omega
  have h4 : ∀ (k : Fin 256) (h : Fin 256), iblk m c 4 t (ix2 k h) = V m c main_arg4 (ix2 k h) := fun k h => by
    show V m c main_arg4 (((cfg0.win 4).blk t).view.emb (ix2 k h)) = _
    refine congrArg (V m c main_arg4) (funext fun a => Fin.ext ?_)
    have q0 : win0_4.index t (0 : Fin 2) = 0 := congrFun f4 0
    have q1 : win0_4.index t (1 : Fin 2) = 0 := congrFun f4 1
    match a with
    | ⟨0, _⟩ => show win0_4.index t (0 : Fin 2) * 256 + 1 * k.val = k.val; omega
    | ⟨1, _⟩ => show win0_4.index t (1 : Fin 2) * 256 + 1 * h.val = h.val; omega
  have h6 : ∀ (k : Fin 256) (h : Fin 256), iblk m c 6 t (ix2 k h) = V m c main_arg6 (ix2 k h) := fun k h => by
    show V m c main_arg6 (((cfg0.win 6).blk t).view.emb (ix2 k h)) = _
    refine congrArg (V m c main_arg6) (funext fun a => Fin.ext ?_)
    have q0 : win0_6.index t (0 : Fin 2) = 0 := congrFun f6 0
    have q1 : win0_6.index t (1 : Fin 2) = 0 := congrFun f6 1
    match a with
    | ⟨0, _⟩ => show win0_6.index t (0 : Fin 2) * 256 + 1 * k.val = k.val; omega
    | ⟨1, _⟩ => show win0_6.index t (1 : Fin 2) * 256 + 1 * h.val = h.val; omega
  have h8 : ∀ (k : Fin 256) (h : Fin 256), iblk m c 8 t (ix2 k h) = V m c main_arg8 (ix2 k h) := fun k h => by
    show V m c main_arg8 (((cfg0.win 8).blk t).view.emb (ix2 k h)) = _
    refine congrArg (V m c main_arg8) (funext fun a => Fin.ext ?_)
    have q0 : win0_8.index t (0 : Fin 2) = 0 := congrFun f8 0
    have q1 : win0_8.index t (1 : Fin 2) = 0 := congrFun f8 1
    match a with
    | ⟨0, _⟩ => show win0_8.index t (0 : Fin 2) * 256 + 1 * k.val = k.val; omega
    | ⟨1, _⟩ => show win0_8.index t (1 : Fin 2) * 256 + 1 * h.val = h.val; omega
  have h10 : ∀ (k : Fin 256) (h : Fin 256), iblk m c 10 t (ix2 k h) = V m c main_arg10 (ix2 k h) := fun k h => by
    show V m c main_arg10 (((cfg0.win 10).blk t).view.emb (ix2 k h)) = _
    refine congrArg (V m c main_arg10) (funext fun a => Fin.ext ?_)
    have q0 : win0_10.index t (0 : Fin 2) = 0 := congrFun f10 0
    have q1 : win0_10.index t (1 : Fin 2) = 0 := congrFun f10 1
    match a with
    | ⟨0, _⟩ => show win0_10.index t (0 : Fin 2) * 256 + 1 * k.val = k.val; omega
    | ⟨1, _⟩ => show win0_10.index t (1 : Fin 2) * 256 + 1 * h.val = h.val; omega
  have h12 : ∀ (k : Fin 256) (h : Fin 256), iblk m c 12 t (ix2 k h) = V m c main_arg12 (ix2 k h) := fun k h => by
    show V m c main_arg12 (((cfg0.win 12).blk t).view.emb (ix2 k h)) = _
    refine congrArg (V m c main_arg12) (funext fun a => Fin.ext ?_)
    have q0 : win0_12.index t (0 : Fin 2) = 0 := congrFun f12 0
    have q1 : win0_12.index t (1 : Fin 2) = 0 := congrFun f12 1
    match a with
    | ⟨0, _⟩ => show win0_12.index t (0 : Fin 2) * 256 + 1 * k.val = k.val; omega
    | ⟨1, _⟩ => show win0_12.index t (1 : Fin 2) * 256 + 1 * h.val = h.val; omega
  have h14 : ∀ (k : Fin 256) (h : Fin 128), iblk m c 14 t (ix2 k h) = V m c main_arg20 (ix2 k h) := fun k h => by
    show V m c main_arg20 (((cfg0.win 14).blk t).view.emb (ix2 k h)) = _
    refine congrArg (V m c main_arg20) (funext fun a => Fin.ext ?_)
    have q0 : win0_14.index t (0 : Fin 2) = 0 := congrFun f14 0
    have q1 : win0_14.index t (1 : Fin 2) = 0 := congrFun f14 1
    match a with
    | ⟨0, _⟩ => show win0_14.index t (0 : Fin 2) * 256 + 1 * k.val = k.val; omega
    | ⟨1, _⟩ => show win0_14.index t (1 : Fin 2) * 128 + 1 * h.val = h.val; omega
  have h3 : ∀ h : Fin 256, iblk m c 3 t (ix1 h) = V m c main_arg3 (ix1 h) := fun h => by
    show V m c main_arg3 (((cfg0.win 3).blk t).view.emb (ix1 h)) = _
    refine congrArg (V m c main_arg3) (funext fun a => Fin.ext ?_)
    have q0 : win0_3.index t (0 : Fin 1) = 0 := congrFun f3 0
    match a with
    | ⟨0, _⟩ => show win0_3.index t (0 : Fin 1) * 256 + 1 * h.val = h.val; omega
  have h5 : ∀ h : Fin 256, iblk m c 5 t (ix1 h) = V m c main_arg5 (ix1 h) := fun h => by
    show V m c main_arg5 (((cfg0.win 5).blk t).view.emb (ix1 h)) = _
    refine congrArg (V m c main_arg5) (funext fun a => Fin.ext ?_)
    have q0 : win0_5.index t (0 : Fin 1) = 0 := congrFun f5 0
    match a with
    | ⟨0, _⟩ => show win0_5.index t (0 : Fin 1) * 256 + 1 * h.val = h.val; omega
  have h7 : ∀ h : Fin 256, iblk m c 7 t (ix1 h) = V m c main_arg7 (ix1 h) := fun h => by
    show V m c main_arg7 (((cfg0.win 7).blk t).view.emb (ix1 h)) = _
    refine congrArg (V m c main_arg7) (funext fun a => Fin.ext ?_)
    have q0 : win0_7.index t (0 : Fin 1) = 0 := congrFun f7 0
    match a with
    | ⟨0, _⟩ => show win0_7.index t (0 : Fin 1) * 256 + 1 * h.val = h.val; omega
  have h9 : ∀ h : Fin 256, iblk m c 9 t (ix1 h) = V m c main_arg9 (ix1 h) := fun h => by
    show V m c main_arg9 (((cfg0.win 9).blk t).view.emb (ix1 h)) = _
    refine congrArg (V m c main_arg9) (funext fun a => Fin.ext ?_)
    have q0 : win0_9.index t (0 : Fin 1) = 0 := congrFun f9 0
    match a with
    | ⟨0, _⟩ => show win0_9.index t (0 : Fin 1) * 256 + 1 * h.val = h.val; omega
  have h11 : ∀ h : Fin 256, iblk m c 11 t (ix1 h) = V m c main_arg11 (ix1 h) := fun h => by
    show V m c main_arg11 (((cfg0.win 11).blk t).view.emb (ix1 h)) = _
    refine congrArg (V m c main_arg11) (funext fun a => Fin.ext ?_)
    have q0 : win0_11.index t (0 : Fin 1) = 0 := congrFun f11 0
    match a with
    | ⟨0, _⟩ => show win0_11.index t (0 : Fin 1) * 256 + 1 * h.val = h.val; omega
  have h13 : ∀ h : Fin 256, iblk m c 13 t (ix1 h) = V m c main_arg13 (ix1 h) := fun h => by
    show V m c main_arg13 (((cfg0.win 13).blk t).view.emb (ix1 h)) = _
    refine congrArg (V m c main_arg13) (funext fun a => Fin.ext ?_)
    have q0 : win0_13.index t (0 : Fin 1) = 0 := congrFun f13 0
    match a with
    | ⟨0, _⟩ => show win0_13.index t (0 : Fin 1) * 256 + 1 * h.val = h.val; omega
  have h15 : ∀ h : Fin 128, iblk m c 15 t (ix1 h) = V m c main_arg21 (ix1 h) := fun h => by
    show V m c main_arg21 (((cfg0.win 15).blk t).view.emb (ix1 h)) = _
    refine congrArg (V m c main_arg21) (funext fun a => Fin.ext ?_)
    have q0 : win0_15.index t (0 : Fin 1) = 0 := congrFun f15 0
    match a with
    | ⟨0, _⟩ => show win0_15.index t (0 : Fin 1) * 128 + 1 * h.val = h.val; omega
  show out0_16 (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (iblk m c 12 t) (iblk m c 13 t)
      (iblk m c 14 t) (iblk m c 15 t) (ix2 o p)
    = G (V m c main_arg0) (V m c main_arg1) (V m c main_arg2) (V m c main_arg3) (V m c main_arg4) (V m c main_arg5) (V m c main_arg6) (V m c main_arg7) (V m c main_arg8) (V m c main_arg9) (V m c main_arg10) (V m c main_arg11) (V m c main_arg12) (V m c main_arg13) (V m c main_arg20) (V m c main_arg21)
        (((cfg0.win 16).blk t).view.emb (ix2 o p) 0) (((cfg0.win 16).blk t).view.emb (ix2 o p) 1)
  refine (block_apply (iblk m c 0 t) (iblk m c 1 t) (iblk m c 2 t) (iblk m c 3 t) (iblk m c 4 t) (iblk m c 5 t)
    (iblk m c 6 t) (iblk m c 7 t) (iblk m c 8 t) (iblk m c 9 t) (iblk m c 10 t) (iblk m c 11 t) (iblk m c 12 t)
    (iblk m c 13 t) (iblk m c 14 t) (iblk m c 15 t) o p).trans ?_
  rw [ho]
  unfold G
  simp only [h0, h1, h2, h3, h4, h5, h6, h7, h8, h9, h10, h11, h12, h13, h14, h15]

/-- An index of the output array is in point `t`'s block iff each coordinate is in the block's range on its axis. -/
theorem mem_blk (t : Fin cfg0.N) (i : S128x65536.Idx) :
    i ∈ ((cfg0.win 16).blk t).view.set ↔ ∀ a : Fin 2, win0_16.index t a * S128x2048.size a ≤ (i a).val
      ∧ (i a).val < win0_16.index t a * S128x2048.size a + S128x2048.size a := by
  show i ∈ ((View.whole main_v0).slice (win0_16.rect t)).set ↔ _
  rw [View.set_slice_whole, Rect.mem_set_unit]
  exact Iff.rfl

/-- The 32 blocks tile the output: column `b` lies in the block of point `b / 2048`. -/
theorem cover (i : S128x65536.Idx) :
    ∃ t : Fin cfg0.N, (cfg0.win 16).flush t = true ∧ i ∈ ((cfg0.win 16).blk t).view.set := by
  have hi0 : (i 0).val < 128 := (i 0).isLt
  have hi1 : (i 1).val < 65536 := (i 1).isLt
  obtain ⟨t, ht⟩ := idx_onto ⟨(i 1).val / 2048, by omega⟩
  have q0 : win0_16.index t (0 : Fin 2) = 0 := congrFun ht 0
  have q1 : win0_16.index t (1 : Fin 2) = (i 1).val / 2048 := congrFun ht 1
  refine ⟨t, flush0_16 t, ?_⟩
  rw [mem_blk]
  intro a
  match a with
  | ⟨0, _⟩ => show win0_16.index t (0 : Fin 2) * 128 ≤ (i 0).val ∧ (i 0).val < win0_16.index t (0 : Fin 2) * 128 + 128; omega
  | ⟨1, _⟩ => show win0_16.index t (1 : Fin 2) * 2048 ≤ (i 1).val ∧ (i 1).val < win0_16.index t (1 : Fin 2) * 2048 + 2048; omega

/-- THE ARRAY after the run: `G` of the argument arrays. -/
theorem final (c : Dev nD) : (dats m 0 c).arrAt 16 cfg0.N
    = (fun i => G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg20)) (m ((c : Thread nD τ).loc main_arg21)) (i 0) (i 1)) :=
  (dats m 0 c).arrAt_eq_of_cover 16 _ (fun t _ => flushed_eq m c t) cover

/-- The kernel's run: every weakly fair execution ends with the result array at `G` of the argument arrays and every
    argument array unchanged. -/
theorem run : θ_run defs (onTc (τ := τ) (main (F := Ideal))) ⟨m, fun _ => 0, ρ⟩ fun r => ∀ c : Dev nD,
      r.2.mem ((c : Thread nD τ).loc main_v0)
        = (fun i => G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg20)) (m ((c : Thread nD τ).loc main_arg21)) (i 0) (i 1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20)
      ∧ r.2.mem ((c : Thread nD τ).loc main_arg21) = m ((c : Thread nD τ).loc main_arg21) :=
  (θ_run defs _ _).mono (fun r h c => ⟨(h c).1.trans (final m c), (h c).2⟩) (Value.run_blocks m ρ)

end Cert.KernelIdeal.Whole

end
-- ==== Proof.RefTerm.lean ====
/-
  The reference program's result as ONE composed term of its argument arrays, stage by stage, for any float instance.

  With `inp` the transposed input [65536, 256] and `mem` the memory [65536, 256]:
    block input  = elu  (inp · w_inp + b_inp)
    input gate   = sigm (((inp · w_inpgate + b_inpgate) + mem · w_mem_inpgate) + b_mem_inpgate)
    read gate    = sigm (((inp · w_readgate + b_readgate) + mem · w_mem_readgate) + b_mem_readgate)
    decoded      = (read gate * mem) · w_decoder + b_decoder
    hidden       = decoded + block input * input gate
    result       = transpose (sigm (hidden · w_out + b_out))
  Each stage is spelt with exactly the host operations the program applies, in its order: a bias is broadcast
  [n] → [1, n] → [65536, n]; `sigm v` is `1 / (1 + exp (negate v))` with the ones broadcast from a scalar constant; `elu v` selects,
  on `v > 0`, between `v` and `1 * expm1 w`, where `w` is `v` guarded by the same comparison (zero where `v > 0`).
-/
import proofs.«100165_j79791902425371_1_alg».proof.Proof.Gen.ReferenceIdeal

noncomputable section

namespace Cert.ReferenceIdeal.Term

open Cert.ReferenceIdeal Cert.ReferenceIdeal.Gen Idealize.ShloMosaic

variable {F : FTy → Type} [FloatOps F]

/-- A bias [256] as the rows of a [65536, 256] array. -/
def rowBias256 (b : FVec F S256 .f32) : FVec F S65536x256 .f32 :=
  broadcastInDim S65536x256 ![0, 1] bcast_S1x256_S65536x256_0_1 (broadcastInDim S1x256 ![1] bcast_S256_S1x256_1 b)

/-- A bias [128] as the rows of a [65536, 128] array. -/
def rowBias128 (b : FVec F S128 .f32) : FVec F S65536x128 .f32 :=
  broadcastInDim S65536x128 ![0, 1] bcast_S1x128_S65536x128_0_1 (broadcastInDim S1x128 ![1] bcast_S128_S1x128_1 b)

/-- [65536, 256] · [256, 256]. -/
def mm256 (l : FVec F S65536x256 .f32) (w : FVec F S256x256 .f32) : FVec F S65536x256 .f32 :=
  Host.dotGeneral dot_S65536x256_S256x256_S65536x256_1_0_0_1_n_n none l w

/-- [65536, 256] · [256, 128]. -/
def mm128 (l : FVec F S65536x256 .f32) (w : FVec F S256x128 .f32) : FVec F S65536x128 .f32 :=
  Host.dotGeneral dot_S65536x256_S256x128_S65536x128_1_0_0_1_n_n none l w

/-- The scalar constant `1.0` broadcast to [65536, 256]. -/
def ones256 : FVec F S65536x256 .f32 := broadcastInDim S65536x256 ![] bcast_S_S65536x256 (constant S_ .f32 0x3F800000#32)

/-- The scalar constant `0.0` broadcast to [65536, 256]. -/
def zeros256 : FVec F S65536x256 .f32 := broadcastInDim S65536x256 ![] bcast_S_S65536x256 (constant S_ .f32 0x00000000#32)

/-- The scalar constant `1.0` broadcast to [65536, 128]. -/
def ones128 : FVec F S65536x128 .f32 := broadcastInDim S65536x128 ![] bcast_S_S65536x128 (constant S_ .f32 0x3F800000#32)

/-- The logistic function over [65536, 256]: `1 / (1 + exp (negate v))`. -/
def sigm256 (v : FVec F S65536x256 .f32) : FVec F S65536x256 .f32 :=
  Host.divf ones256 (addf ones256 (Host.exp (Host.negf v)))

/-- The logistic function over [65536, 128]. -/
def sigm128 (v : FVec F S65536x128 .f32) : FVec F S65536x128 .f32 :=
  Host.divf ones128 (addf ones128 (Host.exp (Host.negf v)))

/-- The exponential linear unit over [65536, 256], as the program's outlined function computes it. -/
def elu256 (v : FVec F S65536x256 .f32) : FVec F S65536x256 .f32 :=
  select (cmpf .ogt v zeros256) v
    (mulf ones256 (Host.expm1 (select (cmpf .ogt v zeros256)
      (broadcastInDim S65536x256 ![] bcast_S_S65536x256 (id (constant S_ .f32 0x00000000#32) : FVec F S_ .f32)) v)))

/-- The input, batch-major. -/
def inpT (a0 : FVec F S256x65536 .f32) : FVec F S65536x256 .f32 :=
  transpose S65536x256 [1, 0] a0 transposes_S256x65536_S65536x256_1_0

/-- A gate's pre-activation summed in the program's order, then the logistic function. -/
def gateT (a0 : FVec F S256x65536 .f32) (a1 : FVec F S65536x256 .f32) (w : FVec F S256x256 .f32) (c : FVec F S256 .f32)
    (wm : FVec F S256x256 .f32) (cm : FVec F S256 .f32) : FVec F S65536x256 .f32 :=
  sigm256 (addf (addf (addf (mm256 (inpT a0) w) (rowBias256 c)) (mm256 a1 wm)) (rowBias256 cm))

/-- The block input. -/
def blockInpT (a0 : FVec F S256x65536 .f32) (a6 : FVec F S256x256 .f32) (a7 : FVec F S256 .f32) : FVec F S65536x256 .f32 :=
  elu256 (addf (mm256 (inpT a0) a6) (rowBias256 a7))

/-- The decoded memory. -/
def decodedT (a0 : FVec F S256x65536 .f32) (a1 : FVec F S65536x256 .f32) (a8 : FVec F S256x256 .f32) (a9 : FVec F S256 .f32)
    (a10 : FVec F S256x256 .f32) (a11 : FVec F S256 .f32) (a12 : FVec F S256x256 .f32) (a13 : FVec F S256 .f32) :
    FVec F S65536x256 .f32 :=
  addf (mm256 (mulf (gateT a0 a1 a8 a9 a10 a11) a1) a12) (rowBias256 a13)

/-- The hidden activation. -/
def hiddenT (a0 : FVec F S256x65536 .f32) (a1 : FVec F S65536x256 .f32) (a2 : FVec F S256x256 .f32) (a3 : FVec F S256 .f32)
    (a4 : FVec F S256x256 .f32) (a5 : FVec F S256 .f32) (a6 : FVec F S256x256 .f32) (a7 : FVec F S256 .f32)
    (a8 : FVec F S256x256 .f32) (a9 : FVec F S256 .f32) (a10 : FVec F S256x256 .f32) (a11 : FVec F S256 .f32)
    (a12 : FVec F S256x256 .f32) (a13 : FVec F S256 .f32) : FVec F S65536x256 .f32 :=
  addf (decodedT a0 a1 a8 a9 a10 a11 a12 a13) (mulf (blockInpT a0 a6 a7) (gateT a0 a1 a2 a3 a4 a5))

/-- The program's result [128, 65536] of its arguments 0–13, 20 and 21 (arguments 14–19 feed nothing). -/
def refOut (a0 : FVec F S256x65536 .f32) (a1 : FVec F S65536x256 .f32) (a2 : FVec F S256x256 .f32) (a3 : FVec F S256 .f32)
    (a4 : FVec F S256x256 .f32) (a5 : FVec F S256 .f32) (a6 : FVec F S256x256 .f32) (a7 : FVec F S256 .f32)
    (a8 : FVec F S256x256 .f32) (a9 : FVec F S256 .f32) (a10 : FVec F S256x256 .f32) (a11 : FVec F S256 .f32)
    (a12 : FVec F S256x256 .f32) (a13 : FVec F S256 .f32) (a20 : FVec F S256x128 .f32) (a21 : FVec F S128 .f32) :
    FVec F S128x65536 .f32 :=
  transpose S128x65536 [1, 0]
    (sigm128 (addf (mm128 (hiddenT a0 a1 a2 a3 a4 a5 a6 a7 a8 a9 a10 a11 a12 a13) a20) (rowBias128 a21)))
    transposes_S65536x128_S128x65536_1_0

end Cert.ReferenceIdeal.Term

end
-- ==== Proof.RefRun.lean ====
/-
  The reference program's run, written out. The program is a straight line of host operations once its one call
  (the exponential linear unit, which itself calls the two guarded selections) is read as the callee's operations
  listed at the call site over the call's own buffers: 74 operations, each writing one buffer once, in program order.
  `main_eq`: @main is that line. `run`: from any memory with zero counters every weakly fair execution ends with the
  result buffer at the composed term `Term.refOut` of the arguments' launch contents and every argument unchanged.
-/
import proofs.«100165_j79791902425371_1_alg».proof.Proof.RefTerm
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]
/-- @main's 74 operations in order, the call unfolded: five of @main's own (the transposed input, the block input's
    product, its bias in two broadcasts, their sum), the fifteen of the exponential linear unit over that sum (zero
    twice as scalar, broadcast and comparison; the guarded argument: the scalar zero converted, broadcast, selected;
    its `expm1`; one as scalar and broadcast, the product; the final selection), then @main's remaining fifty-four. -/
abbrev ops : List (HloOp τ sig (Elt F)) :=
  [ unary main_arg0 main_v0 ((transpose S65536x256 [1, 0] · transposes_S256x65536_S65536x256_1_0) : (⟨S256x65536, .f32⟩ : BufTy).Contents (Elt F) → (⟨S65536x256, .f32⟩ : BufTy).Contents (Elt F)),
    binary main_v0 main_arg6 main_v1 ((fun l r => Host.dotGeneral dot_S65536x256_S256x256_S65536x256_1_0_0_1_n_n none l r) : (⟨S65536x256, .f32⟩ : BufTy).Contents (Elt F) → (⟨S256x256, .f32⟩ : BufTy).Contents (Elt F) → (⟨S65536x256, .f32⟩ : BufTy).Contents (Elt F)),
    unary main_arg7 main_v2 (broadcastInDim S1x256 ![1] bcast_S256_S1x256_1 : (⟨S256, .f32⟩ : BufTy).Contents (Elt F) → (⟨S1x256, .f32⟩ : BufTy).Contents (Elt F)),
    unary main_v2 main_v3 (broadcastInDim S65536x256 ![0, 1] bcast_S1x256_S65536x256_0_1 : (⟨S1x256, .f32⟩ : BufTy).Contents (Elt F) → (⟨S65536x256, .f32⟩ : BufTy).Contents (Elt F)),
    binary main_v1 main_v3 main_v4 (addf : (⟨S65536x256, .f32⟩ : BufTy).Contents (Elt F) → (⟨S65536x256, .f32⟩ : BufTy).Contents (Elt F) → (⟨S65536x256, .f32⟩ : BufTy).Contents (Elt F)),
    TRef.nullary main_call0.cst (constant S_ .f32 0x00000000#32),
    TRef.unary main_call0.cst main_call0.v0 (broadcastInDim S65536x256 ![] bcast_S_S65536x256),
    TRef.binary (.of main_v4) main_call0.v0 main_call0.v1 (cmpf .ogt),
    TRef.nullary main_call0.cst_0 (constant S_ .f32 0x00000000#32),
    TRef.unary main_call0.cst_0 main_call0.v2 (broadcastInDim S65536x256 ![] bcast_S_S65536x256),
    TRef.binary (.of main_v4) main_call0.v2 main_call0.v3 (cmpf .ogt),
    TRef.nullary main_call0.cst_1 (constant S_ .f32 0x00000000#32),
    TRef.unary main_call0.cst_1 main_call0.call0.v0 id,
    TRef.unary main_call0.call0.v0 main_call0.call0.v1 (broadcastInDim S65536x256 ![] bcast_S_S65536x256),
    TRef.ternary main_call0.v3 main_call0.call0.v1 (.of main_v4) main_call0.call0.v2 select,
    TRef.unary main_call0.call0.v2 main_call0.v5 Host.expm1,
    TRef.nullary main_call0.cst_2 (constant S_ .f32 0x3F800000#32),
    TRef.unary main_call0.cst_2 main_call0.v6 (broadcastInDim S65536x256 ![] bcast_S_S65536x256),
    TRef.binary main_call0.v6 main_call0.v5 main_call0.v7 mulf,
    TRef.ternary main_call0.v1 (.of main_v4) main_call0.v7 main_call0.call1.v0 select,
    binary main_v0 main_arg2 main_v6 ((fun l r => Host.dotGeneral dot_S65536x256_S256x256_S65536x256_1_0_0_1_n_n none l r) : (⟨S65536x256, .f32⟩ : BufTy).Contents (Elt F) → (⟨S256x256, .f32⟩ : BufTy).Contents (Elt F) → (⟨S65536x256, .f32⟩ : BufTy).Contents (Elt F)),
    unary main_arg3 main_v7 (broadcastInDim S1x256 ![1] bcast_S256_S1x256_1 : (⟨S256, .f32⟩ : BufTy).Contents (Elt F) → (⟨S1x256, .f32⟩ : BufTy).Contents (Elt F)),
    unary main_v7 main_v8 (broadcastInDim S65536x256 ![0, 1] bcast_S1x256_S65536x256_0_1 : (⟨S1x256, .f32⟩ : BufTy).Contents (Elt F) → (⟨S65536x256, .f32⟩ : BufTy).Contents (Elt F)),
    binary main_v6 main_v8 main_v9 (addf : (⟨S65536x256, .f32⟩ : BufTy).Contents (Elt F) → (⟨S65536x256, .f32⟩ : BufTy).Contents (Elt F) → (⟨S65536x256, .f32⟩ : BufTy).Contents (Elt F)),
    binary main_arg1 main_arg4 main_v10 ((fun l r => Host.dotGeneral dot_S65536x256_S256x256_S65536x256_1_0_0_1_n_n none l r) : (⟨S65536x256, .f32⟩ : BufTy).Contents (Elt F) → (⟨S256x256, .f32⟩ : BufTy).Contents (Elt F) → (⟨S65536x256, .f32⟩ : BufTy).Contents (Elt F)),
    binary main_v9 main_v10 main_v11 (addf : (⟨S65536x256, .f32⟩ : BufTy).Contents (Elt F) → (⟨S65536x256, .f32⟩ : BufTy).Contents (Elt F) → (⟨S65536x256, .f32⟩ : BufTy).Contents (Elt F)),
    unary main_arg5 main_v12 (broadcastInDim S1x256 ![1] bcast_S256_S1x256_1 : (⟨S256, .f32⟩ : BufTy).Contents (Elt F) → (⟨S1x256, .f32⟩ : BufTy).Contents (Elt F)),
    unary main_v12 main_v13 (broadcastInDim S65536x256 ![0, 1] bcast_S1x256_S65536x256_0_1 : (⟨S1x256, .f32⟩ : BufTy).Contents (Elt F) → (⟨S65536x256, .f32⟩ : BufTy).Contents (Elt F)),
    binary main_v11 main_v13 main_v14 (addf : (⟨S65536x256, .f32⟩ : BufTy).Contents (Elt F) → (⟨S65536x256, .f32⟩ : BufTy).Contents (Elt F) → (⟨S65536x256, .f32⟩ : BufTy).Contents (Elt F)),
    unary main_v14 main_v15 (Host.negf : (⟨S65536x256, .f32⟩ : BufTy).Contents (Elt F) → (⟨S65536x256, .f32⟩ : BufTy).Contents (Elt F)),
    unary main_v15 main_v16 (Host.exp : (⟨S65536x256, .f32⟩ : BufTy).Contents (Elt F) → (⟨S65536x256, .f32⟩ : BufTy).Contents (Elt F)),
    nullary main_cst (constant S_ .f32 0x3F800000#32),
    unary main_cst main_v17 (broadcastInDim S65536x256 ![] bcast_S_S65536x256 : (⟨S_, .f32⟩ : BufTy).Contents (Elt F) → (⟨S65536x256, .f32⟩ : BufTy).Contents (Elt F)),
    binary main_v17 main_v16 main_v18 (addf : (⟨S65536x256, .f32⟩ : BufTy).Contents (Elt F) → (⟨S65536x256, .f32⟩ : BufTy).Contents (Elt F) → (⟨S65536x256, .f32⟩ : BufTy).Contents (Elt F)),
    nullary main_cst_0 (constant S_ .f32 0x3F800000#32),
    unary main_cst_0 main_v19 (broadcastInDim S65536x256 ![] bcast_S_S65536x256 : (⟨S_, .f32⟩ : BufTy).Contents (Elt F) → (⟨S65536x256, .f32⟩ : BufTy).Contents (Elt F)),
    binary main_v19 main_v18 main_v20 (Host.divf : (⟨S65536x256, .f32⟩ : BufTy).Contents (Elt F) → (⟨S65536x256, .f32⟩ : BufTy).Contents (Elt F) → (⟨S65536x256, .f32⟩ : BufTy).Contents (Elt F)),
    binary main_v0 main_arg8 main_v21 ((fun l r => Host.dotGeneral dot_S65536x256_S256x256_S65536x256_1_0_0_1_n_n none l r) : (⟨S65536x256, .f32⟩ : BufTy).Contents (Elt F) → (⟨S256x256, .f32⟩ : BufTy).Contents (Elt F) → (⟨S65536x256, .f32⟩ : BufTy).Contents (Elt F)),
    unary main_arg9 main_v22 (broadcastInDim S1x256 ![1] bcast_S256_S1x256_1 : (⟨S256, .f32⟩ : BufTy).Contents (Elt F) → (⟨S1x256, .f32⟩ : BufTy).Contents (Elt F)),
    unary main_v22 main_v23 (broadcastInDim S65536x256 ![0, 1] bcast_S1x256_S65536x256_0_1 : (⟨S1x256, .f32⟩ : BufTy).Contents (Elt F) → (⟨S65536x256, .f32⟩ : BufTy).Contents (Elt F)),
    binary main_v21 main_v23 main_v24 (addf : (⟨S65536x256, .f32⟩ : BufTy).Contents (Elt F) → (⟨S65536x256, .f32⟩ : BufTy).Contents (Elt F) → (⟨S65536x256, .f32⟩ : BufTy).Contents (Elt F)),
    binary main_arg1 main_arg10 main_v25 ((fun l r => Host.dotGeneral dot_S65536x256_S256x256_S65536x256_1_0_0_1_n_n none l r) : (⟨S65536x256, .f32⟩ : BufTy).Contents (Elt F) → (⟨S256x256, .f32⟩ : BufTy).Contents (Elt F) → (⟨S65536x256, .f32⟩ : BufTy).Contents (Elt F)),
    binary main_v24 main_v25 main_v26 (addf : (⟨S65536x256, .f32⟩ : BufTy).Contents (Elt F) → (⟨S65536x256, .f32⟩ : BufTy).Contents (Elt F) → (⟨S65536x256, .f32⟩ : BufTy).Contents (Elt F)),
    unary main_arg11 main_v27 (broadcastInDim S1x256 ![1] bcast_S256_S1x256_1 : (⟨S256, .f32⟩ : BufTy).Contents (Elt F) → (⟨S1x256, .f32⟩ : BufTy).Contents (Elt F)),
    unary main_v27 main_v28 (broadcastInDim S65536x256 ![0, 1] bcast_S1x256_S65536x256_0_1 : (⟨S1x256, .f32⟩ : BufTy).Contents (Elt F) → (⟨S65536x256, .f32⟩ : BufTy).Contents (Elt F)),
    binary main_v26 main_v28 main_v29 (addf : (⟨S65536x256, .f32⟩ : BufTy).Contents (Elt F) → (⟨S65536x256, .f32⟩ : BufTy).Contents (Elt F) → (⟨S65536x256, .f32⟩ : BufTy).Contents (Elt F)),
    unary main_v29 main_v30 (Host.negf : (⟨S65536x256, .f32⟩ : BufTy).Contents (Elt F) → (⟨S65536x256, .f32⟩ : BufTy).Contents (Elt F)),
    unary main_v30 main_v31 (Host.exp : (⟨S65536x256, .f32⟩ : BufTy).Contents (Elt F) → (⟨S65536x256, .f32⟩ : BufTy).Contents (Elt F)),
    nullary main_cst_1 (constant S_ .f32 0x3F800000#32),
    unary main_cst_1 main_v32 (broadcastInDim S65536x256 ![] bcast_S_S65536x256 : (⟨S_, .f32⟩ : BufTy).Contents (Elt F) → (⟨S65536x256, .f32⟩ : BufTy).Contents (Elt F)),
    binary main_v32 main_v31 main_v33 (addf : (⟨S65536x256, .f32⟩ : BufTy).Contents (Elt F) → (⟨S65536x256, .f32⟩ : BufTy).Contents (Elt F) → (⟨S65536x256, .f32⟩ : BufTy).Contents (Elt F)),
    nullary main_cst_2 (constant S_ .f32 0x3F800000#32),
    unary main_cst_2 main_v34 (broadcastInDim S65536x256 ![] bcast_S_S65536x256 : (⟨S_, .f32⟩ : BufTy).Contents (Elt F) → (⟨S65536x256, .f32⟩ : BufTy).Contents (Elt F)),
    binary main_v34 main_v33 main_v35 (Host.divf : (⟨S65536x256, .f32⟩ : BufTy).Contents (Elt F) → (⟨S65536x256, .f32⟩ : BufTy).Contents (Elt F) → (⟨S65536x256, .f32⟩ : BufTy).Contents (Elt F)),
    binary main_v35 main_arg1 main_v36 (mulf : (⟨S65536x256, .f32⟩ : BufTy).Contents (Elt F) → (⟨S65536x256, .f32⟩ : BufTy).Contents (Elt F) → (⟨S65536x256, .f32⟩ : BufTy).Contents (Elt F)),
    binary main_v36 main_arg12 main_v37 ((fun l r => Host.dotGeneral dot_S65536x256_S256x256_S65536x256_1_0_0_1_n_n none l r) : (⟨S65536x256, .f32⟩ : BufTy).Contents (Elt F) → (⟨S256x256, .f32⟩ : BufTy).Contents (Elt F) → (⟨S65536x256, .f32⟩ : BufTy).Contents (Elt F)),
    unary main_arg13 main_v38 (broadcastInDim S1x256 ![1] bcast_S256_S1x256_1 : (⟨S256, .f32⟩ : BufTy).Contents (Elt F) → (⟨S1x256, .f32⟩ : BufTy).Contents (Elt F)),
    unary main_v38 main_v39 (broadcastInDim S65536x256 ![0, 1] bcast_S1x256_S65536x256_0_1 : (⟨S1x256, .f32⟩ : BufTy).Contents (Elt F) → (⟨S65536x256, .f32⟩ : BufTy).Contents (Elt F)),
    binary main_v37 main_v39 main_v40 (addf : (⟨S65536x256, .f32⟩ : BufTy).Contents (Elt F) → (⟨S65536x256, .f32⟩ : BufTy).Contents (Elt F) → (⟨S65536x256, .f32⟩ : BufTy).Contents (Elt F)),
    binary main_v5 main_v20 main_v41 (mulf : (⟨S65536x256, .f32⟩ : BufTy).Contents (Elt F) → (⟨S65536x256, .f32⟩ : BufTy).Contents (Elt F) → (⟨S65536x256, .f32⟩ : BufTy).Contents (Elt F)),
    binary main_v40 main_v41 main_v42 (addf : (⟨S65536x256, .f32⟩ : BufTy).Contents (Elt F) → (⟨S65536x256, .f32⟩ : BufTy).Contents (Elt F) → (⟨S65536x256, .f32⟩ : BufTy).Contents (Elt F)),
    binary main_v42 main_arg20 main_v43 ((fun l r => Host.dotGeneral dot_S65536x256_S256x128_S65536x128_1_0_0_1_n_n none l r) : (⟨S65536x256, .f32⟩ : BufTy).Contents (Elt F) → (⟨S256x128, .f32⟩ : BufTy).Contents (Elt F) → (⟨S65536x128, .f32⟩ : BufTy).Contents (Elt F)),
    unary main_arg21 main_v44 (broadcastInDim S1x128 ![1] bcast_S128_S1x128_1 : (⟨S128, .f32⟩ : BufTy).Contents (Elt F) → (⟨S1x128, .f32⟩ : BufTy).Contents (Elt F)),
    unary main_v44 main_v45 (broadcastInDim S65536x128 ![0, 1] bcast_S1x128_S65536x128_0_1 : (⟨S1x128, .f32⟩ : BufTy).Contents (Elt F) → (⟨S65536x128, .f32⟩ : BufTy).Contents (Elt F)),
    binary main_v43 main_v45 main_v46 (addf : (⟨S65536x128, .f32⟩ : BufTy).Contents (Elt F) → (⟨S65536x128, .f32⟩ : BufTy).Contents (Elt F) → (⟨S65536x128, .f32⟩ : BufTy).Contents (Elt F)),
    unary main_v46 main_v47 (Host.negf : (⟨S65536x128, .f32⟩ : BufTy).Contents (Elt F) → (⟨S65536x128, .f32⟩ : BufTy).Contents (Elt F)),
    unary main_v47 main_v48 (Host.exp : (⟨S65536x128, .f32⟩ : BufTy).Contents (Elt F) → (⟨S65536x128, .f32⟩ : BufTy).Contents (Elt F)),
    nullary main_cst_3 (constant S_ .f32 0x3F800000#32),
    unary main_cst_3 main_v49 (broadcastInDim S65536x128 ![] bcast_S_S65536x128 : (⟨S_, .f32⟩ : BufTy).Contents (Elt F) → (⟨S65536x128, .f32⟩ : BufTy).Contents (Elt F)),
    binary main_v49 main_v48 main_v50 (addf : (⟨S65536x128, .f32⟩ : BufTy).Contents (Elt F) → (⟨S65536x128, .f32⟩ : BufTy).Contents (Elt F) → (⟨S65536x128, .f32⟩ : BufTy).Contents (Elt F)),
    nullary main_cst_4 (constant S_ .f32 0x3F800000#32),
    unary main_cst_4 main_v51 (broadcastInDim S65536x128 ![] bcast_S_S65536x128 : (⟨S_, .f32⟩ : BufTy).Contents (Elt F) → (⟨S65536x128, .f32⟩ : BufTy).Contents (Elt F)),
    binary main_v51 main_v50 main_v52 (Host.divf : (⟨S65536x128, .f32⟩ : BufTy).Contents (Elt F) → (⟨S65536x128, .f32⟩ : BufTy).Contents (Elt F) → (⟨S65536x128, .f32⟩ : BufTy).Contents (Elt F)),
    unary main_v52 main_v53 ((transpose S128x65536 [1, 0] · transposes_S65536x128_S128x65536_1_0) : (⟨S65536x128, .f32⟩ : BufTy).Contents (Elt F) → (⟨S128x65536, .f32⟩ : BufTy).Contents (Elt F)) ]

-- seventy-four binds re-associated: the rewrite under the chain recurses once per statement
set_option maxRecDepth 4096 in
set_option maxHeartbeats 1600000 in
/-- @main is that straight line: the two windows, the functions' definitions unfolded at their calls and the
    records at their fields; both sides are one chain of steps once sequencing is reassociated. -/
theorem main_eq (c : Dev nD) : main (F := F) c = seq ops := by
  simp only [main, main_part0, main_part1, fn_elu.body, fn_where.body, fn_where_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., binary_bufs_sub .., unary_bufs_sub .., unary_bufs_sub .., binary_bufs_sub .., binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., unary_bufs_sub .., binary_bufs_sub .., binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., unary_bufs_sub .., binary_bufs_sub .., binary_bufs_sub .., binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., unary_bufs_sub ..⟩

-- the composed term is deep (the transposed input occurs under three products, the block input's sum four times
-- under the unit's comparisons and selections), and the fold is seventy-four results deep: hence the recursion
-- bound and the budget
set_option maxRecDepth 8192 in
set_option maxHeartbeats 1600000 in
/-- The fold at the result buffer is the composed term, by computation: the fold unrolled, each operation's result
    decides whether the buffer read is the one it writes, the typed references' transports are the identity at these
    literal references, and the stages of `Term.refOut` unfold to the same operations in the same order. -/
theorem out_eq (V : Valuation τ sig (Elt F)) :
    after ops V (main_v53 : DevRef τ sig)
      = Term.refOut (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg20 : DevRef τ sig)) (V (main_arg21 : DevRef τ sig)) := by
  simp only [after_cons, after_nil]
  rfl

/-- The buffers the line writes, in order: each of the 74 value buffers once. -/
abbrev written : List (Ref sig .tc) :=
  [main_v0, main_v1, main_v2, main_v3, main_v4, main_call0_cst, main_call0_v0, main_call0_v1, main_call0_cst_0, main_call0_v2, main_call0_v3, main_call0_cst_1, main_call0_call0_v0, main_call0_call0_v1, main_call0_v4, main_call0_v5, main_call0_cst_2, main_call0_v6, main_call0_v7, main_v5, main_v6, main_v7, main_v8, main_v9, main_v10, main_v11, main_v12, main_v13, main_v14, main_v15, main_v16, main_cst, main_v17, main_v18, main_cst_0, main_v19, main_v20, main_v21, main_v22, main_v23, main_v24, main_v25, main_v26, main_v27, main_v28, main_v29, main_v30, main_v31, main_cst_1, main_v32, main_v33, main_cst_2, main_v34, main_v35, main_v36, main_v37, main_v38, main_v39, main_v40, main_v41, main_v42, main_v43, main_v44, main_v45, main_v46, main_v47, main_v48, main_cst_3, main_v49, main_v50, main_cst_4, main_v51, main_v52, main_v53]

theorem single_sub_written {y : Ref sig .tc} (h : y ∈ written) :
    ({Proc.devRef .tc y} : Finset (DevRef τ sig)) ⊆ (written.map (Proc.devRef (τ := τ) .tc)).toFinset :=
  Finset.singleton_subset_iff.mpr (List.mem_toFinset.mpr (List.mem_map_of_mem h))

/-- Every operation writes one buffer of that list. -/
theorem writes_sub : (ops : List (HloOp τ sig (Elt F))).Forall fun op =>
    op.writes ⊆ (written.map (Proc.devRef (τ := τ) .tc)).toFinset :=
  ⟨single_sub_written (by decide), single_sub_written (by decide), single_sub_written (by decide), single_sub_written (by decide), single_sub_written (by decide), single_sub_written (by decide), single_sub_written (by decide), single_sub_written (by decide), single_sub_written (by decide), single_sub_written (by decide), single_sub_written (by decide), single_sub_written (by decide), single_sub_written (by decide), single_sub_written (by decide), single_sub_written (by decide), single_sub_written (by decide), single_sub_written (by decide), single_sub_written (by decide), single_sub_written (by decide), single_sub_written (by decide), single_sub_written (by decide), single_sub_written (by decide), single_sub_written (by decide), single_sub_written (by decide), single_sub_written (by decide), single_sub_written (by decide), single_sub_written (by decide), single_sub_written (by decide), single_sub_written (by decide), single_sub_written (by decide), single_sub_written (by decide), single_sub_written (by decide), single_sub_written (by decide), single_sub_written (by decide), single_sub_written (by decide), single_sub_written (by decide), single_sub_written (by decide), single_sub_written (by decide), single_sub_written (by decide), single_sub_written (by decide), single_sub_written (by decide), single_sub_written (by decide), single_sub_written (by decide), single_sub_written (by decide), single_sub_written (by decide), single_sub_written (by decide), single_sub_written (by decide), single_sub_written (by decide), single_sub_written (by decide), single_sub_written (by decide), single_sub_written (by decide), single_sub_written (by decide), single_sub_written (by decide), single_sub_written (by decide), single_sub_written (by decide), single_sub_written (by decide), single_sub_written (by decide), single_sub_written (by decide), single_sub_written (by decide), single_sub_written (by decide), single_sub_written (by decide), single_sub_written (by decide), single_sub_written (by decide), single_sub_written (by decide), single_sub_written (by decide), single_sub_written (by decide), single_sub_written (by decide), single_sub_written (by decide), single_sub_written (by decide), single_sub_written (by decide), single_sub_written (by decide), single_sub_written (by decide), single_sub_written (by decide), single_sub_written (by decide)⟩

/-- A buffer outside that list — every argument — keeps its contents. -/
theorem keep_eq (V : Valuation τ sig (Elt F)) {r : Ref sig .tc} (hr : r ∉ written) :
    after ops V (Proc.devRef .tc r) = V (Proc.devRef .tc r) :=
  after_of_writes_sub ops V writes_sub hr

/-- On every device, for any float values, from any memory with zero counters: every weakly fair execution of
    @main terminates with the result at the composed term of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v53)
        = Term.refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg20)) (m ((c.tc : Thread nD τ).loc main_arg21))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21) :=
  (θ_run defs _ _).mono (fun _ h c => ⟨(h c main_v53).trans (out_eq _),
      (h c main_arg0).trans (keep_eq _ (by decide)),
      (h c main_arg1).trans (keep_eq _ (by decide)),
      (h c main_arg2).trans (keep_eq _ (by decide)),
      (h c main_arg3).trans (keep_eq _ (by decide)),
      (h c main_arg4).trans (keep_eq _ (by decide)),
      (h c main_arg5).trans (keep_eq _ (by decide)),
      (h c main_arg6).trans (keep_eq _ (by decide)),
      (h c main_arg7).trans (keep_eq _ (by decide)),
      (h c main_arg8).trans (keep_eq _ (by decide)),
      (h c main_arg9).trans (keep_eq _ (by decide)),
      (h c main_arg10).trans (keep_eq _ (by decide)),
      (h c main_arg11).trans (keep_eq _ (by decide)),
      (h c main_arg12).trans (keep_eq _ (by decide)),
      (h c main_arg13).trans (keep_eq _ (by decide)),
      (h c main_arg14).trans (keep_eq _ (by decide)),
      (h c main_arg15).trans (keep_eq _ (by decide)),
      (h c main_arg16).trans (keep_eq _ (by decide)),
      (h c main_arg17).trans (keep_eq _ (by decide)),
      (h c main_arg18).trans (keep_eq _ (by decide)),
      (h c main_arg19).trans (keep_eq _ (by decide)),
      (h c main_arg20).trans (keep_eq _ (by decide)),
      (h c main_arg21).trans (keep_eq _ (by decide))⟩)
    (run_seq scopedRefs_eq scopedSems_eq defs main (fun _ => ops) main_eq (fun _ => ops_sub) m ρ)

end Cert.ReferenceIdeal.HandRun

end
-- ==== Proof.RefRead.lean ====
/-
  The reference's composed result read at one index.

  At the exact instance every stage of the reference's term reads, at the index (b, h) of a [65536, ·] array, as the
  corresponding stage of the per-row function applied to column b of the input and row b of the memory: a matrix product
  is the sum over the contracted coordinate, a broadcast bias its entry, the logistic function and the exponential
  linear unit act entry by entry, and the two transposes swap the coordinates.
-/
import proofs.«100165_j79791902425371_1_alg».proof.Proof.RefTerm
import proofs.«100165_j79791902425371_1_alg».proof.Proof.Spec
import Idealize.ShloMosaic.Lib.ValueIdx
import Idealize.ShloMosaic.Lib.Pipeline.Value
import Idealize.ShloMosaic.Lib.ValueLayout
import Idealize.ShloMosaic.Lib.StackMember
import Idealize.ShloMosaic.PureOps.Ideal.Laws

noncomputable section

namespace Cert.ReferenceIdeal.Read

open Cert.ReferenceIdeal Cert.ReferenceIdeal.Gen Cert.ReferenceIdeal.Term Idealize.ShloMosaic Idealize.ShloMosaic.ValueIdx

/-! ## Matrix products -/

/-- [65536, 256] · [256, 256] at (b, h): the sum over the contracted coordinate. -/
theorem mm256_apply (l : FVec Ideal S65536x256 .f32) (w : FVec Ideal S256x256 .f32) (b : Fin 65536) (h : Fin 256) :
    mm256 l w (ix2 b h) = ∑ k : Fin 256, l (ix2 b k) * w (ix2 k h) :=
  StackMember.dotGeneral_plain_apply (m := 65536) (n := 256) (k := 256) none l w b h

/-- [65536, 256] · [256, 128] at (b, o). -/
theorem mm128_apply (l : FVec Ideal S65536x256 .f32) (w : FVec Ideal S256x128 .f32) (b : Fin 65536) (o : Fin 128) :
    mm128 l w (ix2 b o) = ∑ k : Fin 256, l (ix2 b k) * w (ix2 k o) :=
  StackMember.dotGeneral_plain_apply (m := 65536) (n := 128) (k := 256) none l w b o

/-! ## Broadcast biases -/

/-- A bias broadcast over the rows, at (b, h): its entry h. -/
theorem rowBias256_apply (c : FVec Ideal S256 .f32) (b : Fin 65536) (h : Fin 256) :
    rowBias256 c (ix2 b h) = c (ix1 h) := by
  unfold rowBias256
  rw [broadcastInDim_apply _ _ _ (ix2 b h) (ix2 (0 : Fin 1) h)
        (fun a => match a with | ⟨0, _⟩ => rfl | ⟨1, _⟩ => rfl),
      broadcastInDim_apply _ _ _ (ix2 (0 : Fin 1) h) (ix1 h) (fun a => match a with | ⟨0, _⟩ => rfl)]

theorem rowBias128_apply (c : FVec Ideal S128 .f32) (b : Fin 65536) (o : Fin 128) :
    rowBias128 c (ix2 b o) = c (ix1 o) := by
  unfold rowBias128
  rw [broadcastInDim_apply _ _ _ (ix2 b o) (ix2 (0 : Fin 1) o)
        (fun a => match a with | ⟨0, _⟩ => rfl | ⟨1, _⟩ => rfl),
      broadcastInDim_apply _ _ _ (ix2 (0 : Fin 1) o) (ix1 o) (fun a => match a with | ⟨0, _⟩ => rfl)]

/-! ## Transposes -/

theorem inpT_apply (a0 : FVec Ideal S256x65536 .f32) (b : Fin 65536) (k : Fin 256) :
    inpT a0 (ix2 b k) = a0 (ix2 k b) :=
  transpose_ix2_apply a0 _ b k

/-! ## The activations, entry by entry -/

theorem ones256_apply (j : S65536x256.Idx) : ones256 (F := Ideal) j = Ideal.ofBits .f32 0x3F800000#32 := rfl
theorem zeros256_apply (j : S65536x256.Idx) : zeros256 (F := Ideal) j = Ideal.ofBits .f32 0x00000000#32 := rfl
theorem ones128_apply (j : S65536x128.Idx) : ones128 (F := Ideal) j = Ideal.ofBits .f32 0x3F800000#32 := rfl

theorem sigm256_apply (v : FVec Ideal S65536x256 .f32) (j : S65536x256.Idx) :
    sigm256 v j = Cert.Spec.sigm (v j) := by
  rw [← Cert.Spec.sigm_of_neg]; rfl

theorem sigm128_apply (v : FVec Ideal S65536x128 .f32) (j : S65536x128.Idx) :
    sigm128 v j = Cert.Spec.sigm (v j) := by
  rw [← Cert.Spec.sigm_of_neg]; rfl

theorem elu256_apply (v : FVec Ideal S65536x256 .f32) (j : S65536x256.Idx) :
    elu256 v j = Cert.Spec.elu (v j) := by
  rw [← Cert.Spec.elu_of_guard]; rfl

/-! ## The stages at a batch row -/

section Row

variable (a0 : FVec Ideal S256x65536 .f32) (a1 : FVec Ideal S65536x256 .f32)

/-- A gate at (b, h): the row function's gate of column b of the input and row b of the memory. -/
theorem gateT_apply (w : FVec Ideal S256x256 .f32) (c : FVec Ideal S256 .f32) (wm : FVec Ideal S256x256 .f32)
    (cm : FVec Ideal S256 .f32) (b : Fin 65536) (h : Fin 256) :
    gateT a0 a1 w c wm cm (ix2 b h)
      = Cert.Spec.gate (fun k => a0 (ix2 k b)) (fun k => a1 (ix2 b k)) (fun k h => w (ix2 k h)) (fun h => c (ix1 h))
          (fun k h => wm (ix2 k h)) (fun h => cm (ix1 h)) h := by
  unfold gateT Cert.Spec.gate
  rw [sigm256_apply, addf_apply, addf_apply, addf_apply, mm256_apply, mm256_apply, rowBias256_apply, rowBias256_apply]
  simp only [inpT_apply]

/-- The block input at (b, h). -/
theorem blockInpT_apply (a6 : FVec Ideal S256x256 .f32) (a7 : FVec Ideal S256 .f32) (b : Fin 65536) (h : Fin 256) :
    blockInpT a0 a6 a7 (ix2 b h)
      = Cert.Spec.blockInp (fun k => a0 (ix2 k b)) (fun k h => a6 (ix2 k h)) (fun h => a7 (ix1 h)) h := by
  unfold blockInpT Cert.Spec.blockInp
  rw [elu256_apply, addf_apply, mm256_apply, rowBias256_apply]
  simp only [inpT_apply]

/-- The decoded memory at (b, h). -/
theorem decodedT_apply (a8 : FVec Ideal S256x256 .f32) (a9 : FVec Ideal S256 .f32) (a10 : FVec Ideal S256x256 .f32)
    (a11 : FVec Ideal S256 .f32) (a12 : FVec Ideal S256x256 .f32) (a13 : FVec Ideal S256 .f32) (b : Fin 65536) (h : Fin 256) :
    decodedT a0 a1 a8 a9 a10 a11 a12 a13 (ix2 b h)
      = Cert.Spec.decoded (fun k => a0 (ix2 k b)) (fun k => a1 (ix2 b k)) (fun k h => a8 (ix2 k h)) (fun h => a9 (ix1 h))
          (fun k h => a10 (ix2 k h)) (fun h => a11 (ix1 h)) (fun k h => a12 (ix2 k h)) (fun h => a13 (ix1 h)) h := by
  unfold decodedT Cert.Spec.decoded
  rw [addf_apply, mm256_apply, rowBias256_apply]
  simp only [mulf_apply, gateT_apply]

/-- The hidden activation at (b, h). -/
theorem hiddenT_apply (a2 : FVec Ideal S256x256 .f32) (a3 : FVec Ideal S256 .f32)
    (a4 : FVec Ideal S256x256 .f32) (a5 : FVec Ideal S256 .f32) (a6 : FVec Ideal S256x256 .f32) (a7 : FVec Ideal S256 .f32)
    (a8 : FVec Ideal S256x256 .f32) (a9 : FVec Ideal S256 .f32) (a10 : FVec Ideal S256x256 .f32) (a11 : FVec Ideal S256 .f32)
    (a12 : FVec Ideal S256x256 .f32) (a13 : FVec Ideal S256 .f32) (b : Fin 65536) (h : Fin 256) :
    hiddenT a0 a1 a2 a3 a4 a5 a6 a7 a8 a9 a10 a11 a12 a13 (ix2 b h)
      = Cert.Spec.hidden (fun k => a0 (ix2 k b)) (fun k => a1 (ix2 b k))
          (fun k h => a2 (ix2 k h)) (fun h => a3 (ix1 h)) (fun k h => a4 (ix2 k h)) (fun h => a5 (ix1 h))
          (fun k h => a6 (ix2 k h)) (fun h => a7 (ix1 h)) (fun k h => a8 (ix2 k h)) (fun h => a9 (ix1 h))
          (fun k h => a10 (ix2 k h)) (fun h => a11 (ix1 h)) (fun k h => a12 (ix2 k h)) (fun h => a13 (ix1 h)) h := by
  unfold hiddenT Cert.Spec.hidden
  rw [addf_apply, mulf_apply, decodedT_apply, blockInpT_apply, gateT_apply]

end Row

/-! ## The result -/

/-- The reference's result at (o, b): the row function of column b of the input and row b of the memory, at o. -/
theorem refOut_apply
    (a0 : FVec Ideal S256x65536 .f32) (a1 : FVec Ideal S65536x256 .f32)
    (a2 : FVec Ideal S256x256 .f32) (a3 : FVec Ideal S256 .f32) (a4 : FVec Ideal S256x256 .f32) (a5 : FVec Ideal S256 .f32)
    (a6 : FVec Ideal S256x256 .f32) (a7 : FVec Ideal S256 .f32) (a8 : FVec Ideal S256x256 .f32) (a9 : FVec Ideal S256 .f32)
    (a10 : FVec Ideal S256x256 .f32) (a11 : FVec Ideal S256 .f32) (a12 : FVec Ideal S256x256 .f32) (a13 : FVec Ideal S256 .f32)
    (a20 : FVec Ideal S256x128 .f32) (a21 : FVec Ideal S128 .f32) (o : Fin 128) (b : Fin 65536) :
    refOut (F := Ideal) a0 a1 a2 a3 a4 a5 a6 a7 a8 a9 a10 a11 a12 a13 a20 a21 (ix2 o b)
    = Cert.Spec.rowOut (fun k => a0 (ix2 k b)) (fun k => a1 (ix2 b k))
        (fun k h => a2 (ix2 k h)) (fun h => a3 (ix1 h)) (fun k h => a4 (ix2 k h)) (fun h => a5 (ix1 h))
        (fun k h => a6 (ix2 k h)) (fun h => a7 (ix1 h)) (fun k h => a8 (ix2 k h)) (fun h => a9 (ix1 h))
        (fun k h => a10 (ix2 k h)) (fun h => a11 (ix1 h)) (fun k h => a12 (ix2 k h)) (fun h => a13 (ix1 h))
        (fun k o => a20 (ix2 k o)) (fun o => a21 (ix1 o)) o := by
  unfold refOut Cert.Spec.rowOut Cert.Spec.preOut
  rw [transpose_ix2_apply, sigm128_apply, addf_apply, mm128_apply, rowBias128_apply]
  simp only [hiddenT_apply]

end Cert.ReferenceIdeal.Read

end
-- ==== Proof.lean ====
/-
  A memory-gated recurrent cell, one step, for 65536 batch rows: the kernel against its reference, at the exact instance.

  For batch row `b`, with `inp = x[:, b]` and `mem = mem[b, :]` (256 entries each),
    block input = elu  (inp · w_inp + b_inp)
    input gate  = sigm (((inp · w_inpgate + b_inpgate) + mem · w_mem_inpgate) + b_mem_inpgate)
    read gate   = sigm (((inp · w_readgate + b_readgate) + mem · w_mem_readgate) + b_mem_readgate)
    decoded     = (read gate * mem) · w_decoder + b_decoder
    hidden      = decoded + block input * input gate
    out[:, b]   = sigm (hidden · w_out + b_out)
  (`Cert.Spec.rowOut`, Proof/Spec.lean). The kernel computes 2048 batch rows per grid point, 32 points, with every matrix
  product taken in bf16 and accumulated in f32; on the extended reals a change of float format is the identity and a product
  into a zero accumulator is the plain sum, so each block entry is `rowOut` of its batch row (Proof/KernelPay.lean), the blocks
  tile the output (Proof/KernelArray.lean), and the output array is `rowOut` row by row. The reference applies the same
  operations to whole arrays (its composed term: Proof/RefTerm.lean; that its program ends there: Proof/RefRun.lean), and
  its term read at an index is `rowOut` of the same batch row (Proof/RefRead.lean). The two spellings differ only in the
  activations — the kernel negates as `0 - v` and takes `e^v - 1`, the reference negates outright and takes
  `1 * expm1 w` with `w` guarded by the comparison — and `0 - v = -v`, `1 * y = y` hold on all extended reals, so the
  precondition (finite inputs) is never opened. The idealization applied no rewrite: nothing to preserve.
-/
import proofs.«100165_j79791902425371_1_alg».proof.Defs
import proofs.«100165_j79791902425371_1_alg».proof.Proof.Gen.Kernel
import proofs.«100165_j79791902425371_1_alg».proof.Proof.Gen.Kernel.Frame
import proofs.«100165_j79791902425371_1_alg».proof.Proof.Gen.KernelIdeal
import proofs.«100165_j79791902425371_1_alg».proof.Proof.Gen.KernelIdeal.Frame
import proofs.«100165_j79791902425371_1_alg».proof.Proof.Gen.ReferenceIdeal
import proofs.«100165_j79791902425371_1_alg».proof.Proof.Gen.Pre_finite_inputs
import proofs.«100165_j79791902425371_1_alg».proof.Proof.KernelArray
import proofs.«100165_j79791902425371_1_alg».proof.Proof.RefRun
import proofs.«100165_j79791902425371_1_alg».proof.Proof.RefRead
import Idealize.ShloMosaic.Adequacy
import Idealize.ShloMosaic.Init

noncomputable section

/-! ## The claims -/

namespace Cert.Proof.Claims

open Idealize.ShloMosaic Idealize.ShloMosaic.TcCoe Idealize.SL.Sem Idealize.ShloMosaic.ValueIdx

/-- The word-level kernel runs and leaves its arguments unchanged. -/
theorem frame_kernel : Cert.frame_Kernel := fun m ρ _ => Cert.Kernel.Gen.frame m ρ

/-- The idealized kernel runs and leaves its arguments unchanged. -/
theorem frame_kernelIdeal : Cert.frame_KernelIdeal := fun m ρ _ => Cert.KernelIdeal.Gen.frame m ρ

/-- The reference runs and leaves its arguments unchanged: its run with the result dropped. -/
theorem frame_referenceIdeal : Cert.frame_ReferenceIdeal := fun m ρ _ =>
  (θ_run Cert.ReferenceIdeal.defs _ _).mono (fun _ h c => (h c).2) (Cert.ReferenceIdeal.HandRun.run (F := Ideal) m ρ)

/-- The idealization applied no rewrite, so there is nothing to preserve. -/
theorem preserves : Cert.preserves_Kernel_KernelIdeal := trivial

/-- Run from memories that agree on the arguments, both programs end with entry (o, b) of the result at the row function
    of column `b` of the input and row `b` of the memory: the kernel block by block, the reference through its composed
    term read at an index. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.HandRun.run (F := Ideal) m' ρ')
  obtain ⟨g0, g1, g2, g3, g4, g5, g6, g7, g8, g9, g10, g11, g12, g13, g14, g15, g16, g17, g18, g19, g20, g21⟩ := hagree c
  rw [g0, g1, g2, g3, g4, g5, g6, g7, g8, g9, g10, g11, g12, g13, g20, g21]
  funext i
  obtain ⟨o, b, rfl⟩ : ∃ (o : Fin 128) (b : Fin 65536), i = ix2 o b := ⟨i 0, i 1, eq_ix2 i⟩
  exact Cert.ReferenceIdeal.Read.refOut_apply _ _ _ _ _ _ _ _ _ _ _ _ _ _ _ _ o b

end Cert.Proof.Claims

namespace Cert.Proof

open Cert.Proof.Claims

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
